-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S64x256 : Shape := ⟨2, ![64, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S8192x256 .f32) (main_arg1 : FVec F S64x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  main_v8
-- ==== Kernel.lean ====
abbrev S8192x256 : Shape := ⟨2, ![8192, 256]⟩
abbrev S64x256 : Shape := ⟨2, ![64, 256]⟩
abbrev S_ : Shape := ⟨0, ![]⟩
abbrev S64 : Shape := ⟨1, ![64]⟩
abbrev S1x64 : Shape := ⟨2, ![1, 64]⟩
abbrev S256x64 : Shape := ⟨2, ![256, 64]⟩
abbrev S8192x64 : Shape := ⟨2, ![8192, 64]⟩
abbrev S1024x256 : Shape := ⟨2, ![1024, 256]⟩
abbrev S1024x64 : Shape := ⟨2, ![1024, 64]⟩
abbrev S1024 : Shape := ⟨1, ![1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S64x256, .f32⟩
  | .hbm, ⟨2, _⟩ => ⟨S64x256, .f32⟩
  | .hbm, ⟨3, _⟩ => ⟨S_, .f32⟩
  | .hbm, ⟨4, _⟩ => ⟨S64, .f32⟩
  | .hbm, ⟨5, _⟩ => ⟨S1x64, .f32⟩
  | .hbm, ⟨6, _⟩ => ⟨S64x256, .bf16⟩
  | .hbm, ⟨7, _⟩ => ⟨S256x64, .bf16⟩
  | .hbm, ⟨8, _⟩ => ⟨S8192x64, .f32⟩
  | .hbm, ⟨9, _⟩ => ⟨S1x64, .f32⟩
  | .hbm, ⟨10, _⟩ => ⟨S8192x64, .f32⟩
  | .local _ .vmem, ⟨0, _⟩ => ⟨S1024x256, .f32⟩
  | .local _ .vmem, ⟨1, _⟩ => ⟨S1024x256, .f32⟩
  | .local _ .vmem, ⟨2, _⟩ => ⟨S256x64, .bf16⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S1x64, .f32⟩
  | .local _ .vmem, ⟨7, _⟩ => ⟨S1024x64, .f32⟩
  | .local _ .vmem, ⟨8, _⟩ => ⟨S1024x64, .f32⟩
  | .local _ .vmem, ⟨9, _⟩ => ⟨S1x64, .f32⟩
  | .local _ .vmem, ⟨10, _⟩ => ⟨S1024x64, .f32⟩
  | .local _ .vmem, ⟨11, _⟩ => ⟨S1024x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  reducesTo_S64x256_S64_d1 : S64x256.ReducesTo [1] S64
  h_S_ : 0 < S_.numel
  shapeCasts_S64_S1x64 : S64.ShapeCasts S1x64
  bitsLt_bf16_f32 : FTy.bits .bf16 < FTy.bits .f32
  transposes_S64x256_S256x64_1_0 : S64x256.Transposes [1, 0] S256x64
  inb_S1x64_S1x64_0_0 : ∀ a, (![0, 0] : Fin 2 → Nat) a + S1x64.size a ≤ S1x64.size a
  h_S1x64 : 0 < S1x64.numel
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S1x64_S1x64 : S1x64.ShapeCasts S1x64
  broadcasts_S1024x1_S1024x64 : S1024x1.Broadcasts S1024x64
  broadcasts_S1x64_S1024x64 : S1x64.Broadcasts S1024x64
  reduces_S1024x64_S1024 : S1024x64.Reduces [1] S1024
  inb_S1024x64_S1024x64_0_0 : ∀ a, (![0, 0] : Fin 2 → Nat) a + S1024x64.size a ≤ S1024x64.size a
  h_S1024x64 : 0 < S1024x64.numel
  reduces_S1024x64_S64 : S1024x64.Reduces [0] S64
  shapeCasts_S1024x64_S1024x64 : S1024x64.ShapeCasts S1024x64
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5_0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S64x256 : Shape := ⟨2, ![64, 256]⟩
abbrev S8192x1x256 : Shape := ⟨3, ![8192, 1, 256]⟩
abbrev S1x64x256 : Shape := ⟨3, ![1, 64, 256]⟩
abbrev S8192x64x256 : Shape := ⟨3, ![8192, 64, 256]⟩
abbrev S_ : Shape := ⟨0, ![]⟩
abbrev S8192x64 : Shape := ⟨2, ![8192, 64]⟩
abbrev S8192 : Shape := ⟨1, ![8192]⟩
abbrev S8192x1 : Shape := ⟨2, ![8192, 1]⟩
abbrev S64 : Shape := ⟨1, ![64]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S64x256, .f32⟩
  | .hbm, ⟨2, _⟩ => ⟨S8192x1x256, .f32⟩
  | .hbm, ⟨3, _⟩ => ⟨S1x64x256, .f32⟩
  | .hbm, ⟨4, _⟩ => ⟨S8192x64x256, .f32⟩
  | .hbm, ⟨5, _⟩ => ⟨S8192x64x256, .f32⟩
  | .hbm, ⟨6, _⟩ => ⟨S8192x64x256, .f32⟩
  | .hbm, ⟨7, _⟩ => ⟨S8192x64x256, .f32⟩
  | .hbm, ⟨8, _⟩ => ⟨S_, .f32⟩
  | .hbm, ⟨9, _⟩ => ⟨S8192x64, .f32⟩
  | .hbm, ⟨10, _⟩ => ⟨S8192x64, .f32⟩
  | .hbm, ⟨11, _⟩ => ⟨S_, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S8192x64, .f32⟩
  | .hbm, ⟨19, _⟩ => ⟨S8192x64, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S_, .f32⟩
  | .hbm, ⟨27, _⟩ => ⟨S64, .f32⟩
  | .hbm, ⟨28, _⟩ => ⟨S1x64, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x64, .f32⟩
  | .hbm, ⟨35, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  bcast_S8192x256_S8192x1x256_0_2 : S8192x256.BroadcastsInDim S8192x1x256 (![0, 2] : Fin 2 → Fin S8192x1x256.rank)
  bcast_S64x256_S1x64x256_1_2 : S64x256.BroadcastsInDim S1x64x256 (![1, 2] : Fin 2 → Fin S1x64x256.rank)
  bcast_S8192x1x256_S8192x64x256_0_1_2 : S8192x1x256.BroadcastsInDim S8192x64x256 (![0, 1, 2] : Fin 3 → Fin S8192x64x256.rank)
  bcast_S1x64x256_S8192x64x256_0_1_2 : S1x64x256.BroadcastsInDim S8192x64x256 (![0, 1, 2] : Fin 3 → Fin S8192x64x256.rank)
  reducesTo_S8192x64x256_S8192x64_d2 : S8192x64x256.ReducesTo [2] S8192x64
  h_S_ : 0 < S_.numel
  bcast_S_S8192x64 : S_.BroadcastsInDim S8192x64 (![] : Fin 0 → Fin S8192x64.rank)
  reducesTo_S8192x64_S8192_d1 : S8192x64.ReducesTo [1] S8192
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  reducesTo_S8192x64_S64_d0 : S8192x64.ReducesTo [0] S64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)

variable [Facts₀]

class Facts : Prop extends Facts₀ where

variable [Facts]
-- ==== Proof.SoftAssign.lean ====
/-
  Soft cluster assignment and its target distribution, as functions of the two argument arrays on the extended reals.

  For a point `x` and a centroid `y` in ℝ²⁵⁶ (read in the extended reals) the Student-t similarity with one degree of
  freedom is `(1 + ‖x − y‖)⁻¹`. It is written here twice, once from the difference vector (`simDiff`: the root of
  `∑ₖ (xₖ − yₖ)²`, divided by one, one added, raised to the power −1) and once from the expanded square (`simExpand`:
  the root of `max (‖x‖² + ‖y‖² − 2·x·y) 0`, one added, one divided by it). The two agree wherever all coordinates are
  real numbers (Proof/DistanceLaw.lean).

  From a similarity `sim`:  `assign sim z c i j = sim zᵢ cⱼ / ∑ⱼ' sim zᵢ cⱼ'` (each row normalised to sum one),
  `colMass q j = ∑ᵢ q i j` (the soft cluster sizes), and the target distribution
  `target q i j = (q i j² / colMass q j) / ∑ⱼ' (q i j'² / colMass q j')`.
-/
import Idealize.ShloMosaic.PureOps.Ideal
import Idealize.ShloMosaic.Lib.ValueIdx

noncomputable section

namespace Cert.SoftAssign

open Idealize.ShloMosaic Idealize.ShloMosaic.ValueIdx

/-- The f32 patterns of 1, 2 and −1. -/
abbrev one : EReal := Ideal.ofBits .f32 0x3F800000#32
abbrev two : EReal := Ideal.ofBits .f32 0x40000000#32
abbrev negOne : EReal := Ideal.ofBits .f32 0xBF800000#32

/-- `(1 + ‖x − y‖ / 1) ^ (−1)`, the distance from the difference vector. -/
def simDiff (x y : Fin 256 → EReal) : EReal :=
  Ideal.pow (one + Ideal.div (Ideal.sqrt (∑ k : Fin 256, (x k - y k) * (x k - y k))) one) negOne

/-- `1 / (1 + √(max (‖x‖² + ‖y‖² − 2·x·y) 0))`, the distance from the expanded square. -/
def simExpand (x y : Fin 256 → EReal) : EReal :=
  Ideal.div one (one + Ideal.sqrt (max (((∑ k : Fin 256, x k * x k) + ∑ k : Fin 256, y k * y k)
    - two * ∑ k : Fin 256, x k * y k) 0))

/-- A row of 64 similarities divided by its sum. -/
def normalize (q : Fin 64 → EReal) (j : Fin 64) : EReal := Ideal.div (q j) (∑ j' : Fin 64, q j')

/-- The soft assignment of point `i` to cluster `j`. -/
def assign (sim : (Fin 256 → EReal) → (Fin 256 → EReal) → EReal) (z : Fin 8192 → Fin 256 → EReal)
    (c : Fin 64 → Fin 256 → EReal) (i : Fin 8192) (j : Fin 64) : EReal :=
  normalize (fun j' => sim (z i) (c j')) j

/-- The soft size of cluster `j`. -/
def colMass (q : Fin 8192 → Fin 64 → EReal) (j : Fin 64) : EReal := ∑ i : Fin 8192, q i j

/-- The target distribution: squared assignments over the cluster sizes, each row normalised. -/
def target (q : Fin 8192 → Fin 64 → EReal) (i : Fin 8192) (j : Fin 64) : EReal :=
  normalize (fun j' => Ideal.div (q i j' * q i j') (colMass q j')) j

/-- A matrix as a function of its two coordinates. -/
abbrev rows {n d : Nat} (a : (⟨2, ![n, d]⟩ : Shape).Idx → EReal) : Fin n → Fin d → EReal := fun i k => a (ix2 i k)

/-- The assignment matrix as an array. -/
def assignArr (sim : (Fin 256 → EReal) → (Fin 256 → EReal) → EReal) (z : (⟨2, ![8192, 256]⟩ : Shape).Idx → EReal)
    (c : (⟨2, ![64, 256]⟩ : Shape).Idx → EReal) : (⟨2, ![8192, 64]⟩ : Shape).Idx → EReal :=
  fun idx => assign sim (rows z) (rows c) (idx 0) (idx 1)

/-- The target distribution as an array. -/
def targetArr (sim : (Fin 256 → EReal) → (Fin 256 → EReal) → EReal) (z : (⟨2, ![8192, 256]⟩ : Shape).Idx → EReal)
    (c : (⟨2, ![64, 256]⟩ : Shape).Idx → EReal) : (⟨2, ![8192, 64]⟩ : Shape).Idx → EReal :=
  fun idx => target (assign sim (rows z) (rows c)) (idx 0) (idx 1)

theorem assignArr_ix2 (sim : (Fin 256 → EReal) → (Fin 256 → EReal) → EReal) (z : (⟨2, ![8192, 256]⟩ : Shape).Idx → EReal)
    (c : (⟨2, ![64, 256]⟩ : Shape).Idx → EReal) (i : Fin 8192) (j : Fin 64) :
    assignArr sim z c (ix2 i j) = assign sim (rows z) (rows c) i j := rfl

theorem targetArr_ix2 (sim : (Fin 256 → EReal) → (Fin 256 → EReal) → EReal) (z : (⟨2, ![8192, 256]⟩ : Shape).Idx → EReal)
    (c : (⟨2, ![64, 256]⟩ : Shape).Idx → EReal) (i : Fin 8192) (j : Fin 64) :
    targetArr sim z c (ix2 i j) = target (assign sim (rows z) (rows c)) i j := rfl

end Cert.SoftAssign

end
-- ==== Proof.RefValue.lean ====
/-
  The reference program, read one element at a time, is the specification of Proof/SoftAssign.lean with the similarity
  taken from the difference vector.

  The program broadcasts the points and the centroids to a common rank-3 array, subtracts, squares and sums over the
  last axis, takes the root, divides by one, adds one and raises to the power −1: at the index (i, j) this is
  simDiff zᵢ cⱼ. It then divides each entry by the sum of its row (the soft assignment), sums the assignment down each
  column (the soft cluster sizes), divides the squared assignment by the cluster size and divides each entry of that
  by the sum of its row (the target distribution). Every float sum of the program starts from the zero word, which
  is the extended real 0; the sums of the specification have no initial value.
-/
import proofs.«150530_j7000796692866_1_alg».proof.Proof.Gen.ReferenceIdeal.Read
import proofs.«150530_j7000796692866_1_alg».proof.Proof.SoftAssign
import Idealize.ShloMosaic.Lib.ValueIdx
import Idealize.ShloMosaic.PureOps.Ideal.Laws

noncomputable section

namespace Cert.ReferenceIdeal.RefValue

open Cert.ReferenceIdeal Cert.ReferenceIdeal.Read Cert.SoftAssign Idealize.ShloMosaic Idealize.ShloMosaic.ValueIdx

/-! ## The composed index maps of the layout operations, on coordinates -/

/-- The element of the points read for the entry (i, j, k) of the broadcast array is zᵢₖ. -/
theorem idx_points (i : Fin 8192) (j : Fin 64) (k : Fin 256) :
    idx_main_v0 (idx_main_v2 (idx_main_v6 (ix2 i j) k)) = ix2 i k :=
  funext fun a => Fin.ext (by match a with | ⟨0, _⟩ => rfl | ⟨1, _⟩ => rfl)

/-- The element of the centroids read for the entry (i, j, k) of the broadcast array is cⱼₖ. -/
theorem idx_centroids (i : Fin 8192) (j : Fin 64) (k : Fin 256) :
    idx_main_v1 (idx_main_v3 (idx_main_v6 (ix2 i j) k)) = ix2 j k :=
  funext fun a => Fin.ext (by match a with | ⟨0, _⟩ => rfl | ⟨1, _⟩ => rfl)

/-- The k-th term of the sum of row i of the similarities is the entry (i, k). -/
theorem idx_row14 (i : Fin 8192) (k : Fin 64) : idx_main_v14 (ix1 i) k = ix2 i k :=
  funext fun a => Fin.ext (by match a with | ⟨0, _⟩ => rfl | ⟨1, _⟩ => rfl)

/-- The row sum broadcast back to the entry (i, j) is the sum of row i. -/
theorem idx_bcast16 (i : Fin 8192) (j : Fin 64) : idx_main_v15 (idx_main_v16 (ix2 i j)) = ix1 i :=
  funext fun a => Fin.ext (by match a with | ⟨0, _⟩ => rfl)

/-- The k-th term of the sum of column j of the assignment is the entry (k, j). -/
theorem idx_col19 (j : Fin 64) (k : Fin 8192) : idx_main_v19 (ix1 j) k = ix2 k j :=
  funext fun a => Fin.ext (by match a with | ⟨0, _⟩ => rfl | ⟨1, _⟩ => rfl)

/-- The column sum broadcast back to the entry (i, j) is the sum of column j. -/
theorem idx_bcast21 (i : Fin 8192) (j : Fin 64) : idx_main_v20 (idx_main_v21 (ix2 i j)) = ix1 j :=
  funext fun a => Fin.ext (by match a with | ⟨0, _⟩ => rfl)

/-- The k-th term of the sum of row i of the weighted squares is the entry (i, k). -/
theorem idx_row23 (i : Fin 8192) (k : Fin 64) : idx_main_v23 (ix1 i) k = ix2 i k :=
  funext fun a => Fin.ext (by match a with | ⟨0, _⟩ => rfl | ⟨1, _⟩ => rfl)

/-- The second row sum broadcast back to the entry (i, j) is the sum of row i. -/
theorem idx_bcast25 (i : Fin 8192) (j : Fin 64) : idx_main_v24 (idx_main_v25 (ix2 i j)) = ix1 i :=
  funext fun a => Fin.ext (by match a with | ⟨0, _⟩ => rfl)

/-! ## The stages at an index -/

/-- One term of the squared distance: (zᵢₖ − cⱼₖ)². -/
theorem v5_ix (x0 : (⟨S8192x256, .f32⟩ : BufTy).Contents (Elt Ideal)) (x1 : (⟨S64x256, .f32⟩ : BufTy).Contents (Elt Ideal))
    (i : Fin 8192) (j : Fin 64) (k : Fin 256) :
    val_main_v5 (F := Ideal) x0 x1 (idx_main_v6 (ix2 i j) k)
      = (rows x0 i k - rows x1 j k) * (rows x0 i k - rows x1 j k) := by
  rw [val_main_v5_apply, val_main_v4_apply, val_main_v2_apply, val_main_v0_apply, val_main_v3_apply, val_main_v1_apply,
    idx_points, idx_centroids]
  rfl

/-- The unnormalised similarity of point i and centroid j. -/
theorem v13_ix2 (x0 : (⟨S8192x256, .f32⟩ : BufTy).Contents (Elt Ideal)) (x1 : (⟨S64x256, .f32⟩ : BufTy).Contents (Elt Ideal))
    (i : Fin 8192) (j : Fin 64) :
    val_main_v13 (F := Ideal) x0 x1 (ix2 i j) = simDiff (rows x0 i) (rows x1 j) := by
  rw [val_main_v13_apply, val_main_v11_apply, val_main_v12_apply, val_main_cst_2_apply, val_main_v10_apply,
    val_main_cst_1_apply, val_main_v9_apply, val_main_v8_apply, val_main_cst_0_apply, val_main_v7_apply,
    val_main_v6_apply, val_main_cst_apply]
  simp only [Ideal.hostPowf_def, Ideal.addf_def, Ideal.hostDivf_def, Ideal.hostUnary_sqrt_def, Ideal.ofBits_def,
    Ideal.ofBits_zero_f32, zero_add]
  rw [Finset.sum_congr rfl fun k _ => v5_ix x0 x1 i j k]
  rfl

/-- The sum of row i of the similarities. -/
theorem v14_ix1 (x0 : (⟨S8192x256, .f32⟩ : BufTy).Contents (Elt Ideal)) (x1 : (⟨S64x256, .f32⟩ : BufTy).Contents (Elt Ideal))
    (i : Fin 8192) :
    val_main_v14 (F := Ideal) x0 x1 (ix1 i) = ∑ j' : Fin 64, simDiff (rows x0 i) (rows x1 j') := by
  rw [val_main_v14_apply, val_main_cst_3_apply]
  simp only [Ideal.ofBits_def, Ideal.ofBits_zero_f32, zero_add]
  refine Finset.sum_congr rfl fun k _ => ?_
  rw [idx_row14, v13_ix2]

/-- The soft assignment of point i to cluster j. -/
theorem v17_ix2 (x0 : (⟨S8192x256, .f32⟩ : BufTy).Contents (Elt Ideal)) (x1 : (⟨S64x256, .f32⟩ : BufTy).Contents (Elt Ideal))
    (i : Fin 8192) (j : Fin 64) :
    val_main_v17 (F := Ideal) x0 x1 (ix2 i j) = assign simDiff (rows x0) (rows x1) i j := by
  rw [val_main_v17_apply, val_main_v16_apply, val_main_v15_apply, idx_bcast16, v14_ix1, v13_ix2, Ideal.hostDivf_def]
  rfl

/-- The reference's assignment matrix is the specification's. -/
theorem v17_eq (x0 : (⟨S8192x256, .f32⟩ : BufTy).Contents (Elt Ideal)) (x1 : (⟨S64x256, .f32⟩ : BufTy).Contents (Elt Ideal)) :
    val_main_v17 (F := Ideal) x0 x1 = assignArr simDiff x0 x1 := by
  funext idx
  obtain ⟨i, j, rfl⟩ : ∃ (i : Fin 8192) (j : Fin 64), idx = ix2 i j := ⟨idx 0, idx 1, eq_ix2 idx⟩
  rw [v17_ix2, assignArr_ix2]

/-- The soft size of cluster j: the sum of column j of the assignment. -/
theorem v19_ix1 (x0 : (⟨S8192x256, .f32⟩ : BufTy).Contents (Elt Ideal)) (x1 : (⟨S64x256, .f32⟩ : BufTy).Contents (Elt Ideal))
    (j : Fin 64) :
    val_main_v19 (F := Ideal) x0 x1 (ix1 j) = colMass (assign simDiff (rows x0) (rows x1)) j := by
  rw [val_main_v19_apply, val_main_cst_4_apply]
  simp only [Ideal.ofBits_def, Ideal.ofBits_zero_f32, zero_add]
  unfold colMass
  refine Finset.sum_congr rfl fun k _ => ?_
  rw [idx_col19, v17_ix2]

/-- The squared assignment over the cluster size. -/
theorem v22_ix2 (x0 : (⟨S8192x256, .f32⟩ : BufTy).Contents (Elt Ideal)) (x1 : (⟨S64x256, .f32⟩ : BufTy).Contents (Elt Ideal))
    (i : Fin 8192) (j : Fin 64) :
    val_main_v22 (F := Ideal) x0 x1 (ix2 i j)
      = Ideal.div (assign simDiff (rows x0) (rows x1) i j * assign simDiff (rows x0) (rows x1) i j)
          (colMass (assign simDiff (rows x0) (rows x1)) j) := by
  rw [val_main_v22_apply, val_main_v18_apply, val_main_v21_apply, val_main_v20_apply, idx_bcast21, v19_ix1, v17_ix2,
    Ideal.hostDivf_def, Ideal.mulf_def]

/-- The sum of row i of the weighted squares. -/
theorem v23_ix1 (x0 : (⟨S8192x256, .f32⟩ : BufTy).Contents (Elt Ideal)) (x1 : (⟨S64x256, .f32⟩ : BufTy).Contents (Elt Ideal))
    (i : Fin 8192) :
    val_main_v23 (F := Ideal) x0 x1 (ix1 i)
      = ∑ j' : Fin 64, Ideal.div (assign simDiff (rows x0) (rows x1) i j' * assign simDiff (rows x0) (rows x1) i j')
          (colMass (assign simDiff (rows x0) (rows x1)) j') := by
  rw [val_main_v23_apply, val_main_cst_5_apply]
  simp only [Ideal.ofBits_def, Ideal.ofBits_zero_f32, zero_add]
  refine Finset.sum_congr rfl fun k _ => ?_
  rw [idx_row23, v22_ix2]

/-- The target distribution at (i, j). -/
theorem v26_ix2 (x0 : (⟨S8192x256, .f32⟩ : BufTy).Contents (Elt Ideal)) (x1 : (⟨S64x256, .f32⟩ : BufTy).Contents (Elt Ideal))
    (i : Fin 8192) (j : Fin 64) :
    val_main_v26 (F := Ideal) x0 x1 (ix2 i j) = target (assign simDiff (rows x0) (rows x1)) i j := by
  rw [val_main_v26_apply, val_main_v25_apply, val_main_v24_apply, idx_bcast25, v23_ix1, v22_ix2, Ideal.hostDivf_def]
  rfl

/-- The reference's target distribution is the specification's. -/
theorem v26_eq (x0 : (⟨S8192x256, .f32⟩ : BufTy).Contents (Elt Ideal)) (x1 : (⟨S64x256, .f32⟩ : BufTy).Contents (Elt Ideal)) :
    val_main_v26 (F := Ideal) x0 x1 = targetArr simDiff x0 x1 := by
  funext idx
  obtain ⟨i, j, rfl⟩ : ∃ (i : Fin 8192) (j : Fin 64), idx = ix2 i j := ⟨idx 0, idx 1, eq_ix2 idx⟩
  rw [v26_ix2, targetArr_ix2]

end Cert.ReferenceIdeal.RefValue

end
-- ==== Proof.KernelRun.lean ====
/-
  The idealized kernel's whole run with its two result buffers named.

  The program is three segments: the host operations that prepare the centroids (their squared norms as a row, their
  transpose), the region that writes the assignment matrix and accumulates its column sums, and the region that writes
  the target distribution. Every weakly fair execution terminates, nothing faulting, in a state where EVERY buffer
  outside the regions' scopes holds the contents at the last segment boundary (`Gen.W3`): the two results as the last
  boundary has them, the two arguments as launched. The frame certificate keeps only the arguments of that final state;
  here the two results are kept as well.
-/
import proofs.«150530_j7000796692866_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the assignment matrix's buffer and the target distribution's buffer
    at the last boundary's contents, and both arguments as launched. -/
theorem run_results : θ_run defs (onTc (τ := τ) (main (F := F))) ⟨m, fun _ => 0, ρ⟩ (fun r => ∀ c : Dev nD,
      r.2.mem ((c.tc : Thread nD τ).loc main_v5_0) = W3 m ρ c (Proc.devRef .tc main_v5_0)
      ∧ r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5_0 (by decide)),
       h c _ (mem_uc main_v6 (by decide)),
       (h c _ (mem_uc main_arg0 (by decide))).trans (W3_main_arg0 m ρ c),
       (h c _ (mem_uc main_arg1 (by decide))).trans (W3_main_arg1 m ρ c)⟩)

end Cert.KernelIdeal.RunValue

end
-- ==== Proof.BodyValue.lean ====
/-
  What one grid point of each kernel leaves in its output blocks, as the kernel's own arithmetic of the blocks it loaded.

  First kernel, at a point holding a block `x0` of 1024 points, the transposed centroids `x1` and their squared norms
  `x2`: the assignment block is ONE store of `k0_pay2 x0 x1 x2` (the normalised similarities of the block's rows); the
  running column sums are ONE store of `k0_pay3 x0 x1 x2 acc` — the column sums of that block added to `acc`, what the
  buffer held before: at the first point the zero row the body has just stored there (`k0_pay1`), at a later point what
  the point before left. Second kernel: one store of `k1_pay1 q s` of an assignment block `q` and the column sums `s`.
  Every load and store is of a whole buffer at offset zero, so a stored value read back is the value itself.
-/
import proofs.«150530_j7000796692866_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.BodyValue

open Cert.KernelIdeal Cert.KernelIdeal.Gen

variable {F : FTy → Type} [FloatOps F]

/-- Offset zero on both axes. -/
theorem hz : (![0, 0] : Fin 2 → Nat) = fun _ => 0 := funext fun a => by fin_cases a <;> rfl

/-- At the first point the assignment block is the body's one store: the block's normalised similarities. -/
theorem first_assign (c : Dev nD) (i : grid0.Coords) (a1 : Memref sig .tc .vmem S1024x256 .f32) (h1 : a1.IsWhole)
    (a2 : Memref sig .tc .vmem S256x64 .bf16) (h2 : a2.IsWhole) (a3 : Memref sig .tc .vmem S1x64 .f32) (h3 : a3.IsWhole)
    (a4 : Memref sig .tc .vmem S1024x64 .f32) (h4 : a4.IsWhole) (a5 : Memref sig .tc .vmem S1x64 .f32) (h5 : a5.IsWhole)
    (hc : cond0_0 i) (x0 : Vec F S1024x256 .f32) (x1 : Vec F S256x64 .bf16) (x2 : Vec F S1x64 .f32) :
    out0_A_3 c i a1 h1 a2 h2 a3 h3 a4 h4 a5 h5 hc x0 x1 x2 = k0_pay2 x0 x1 x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, h3.read_unread, h5.read_unread,
    View.ld_unit_zero (S := S1024x256) hz, View.ld_unit_zero (S := S256x64) hz, View.ld_unit_zero (S := S1x64) hz]

/-- At the first point the column sums are the block's, added to the zero row stored just before. -/
theorem first_sums (c : Dev nD) (i : grid0.Coords) (a1 : Memref sig .tc .vmem S1024x256 .f32) (h1 : a1.IsWhole)
    (a2 : Memref sig .tc .vmem S256x64 .bf16) (h2 : a2.IsWhole) (a3 : Memref sig .tc .vmem S1x64 .f32) (h3 : a3.IsWhole)
    (a4 : Memref sig .tc .vmem S1024x64 .f32) (h4 : a4.IsWhole) (a5 : Memref sig .tc .vmem S1x64 .f32) (h5 : a5.IsWhole)
    (hc : cond0_0 i) (x0 : Vec F S1024x256 .f32) (x1 : Vec F S256x64 .bf16) (x2 : Vec F S1x64 .f32) :
    out0_A_4 c i a1 h1 a2 h2 a3 h3 a4 h4 a5 h5 hc x0 x1 x2 = k0_pay3 x0 x1 x2 k0_pay1 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h5.read_unread,
    View.ld_unit_zero (S := S1024x256) hz, View.ld_unit_zero (S := S256x64) hz, View.ld_unit_zero (S := S1x64) hz]

/-- At a later point the assignment block is again the body's one store. -/
theorem later_assign (c : Dev nD) (i : grid0.Coords) (a1 : Memref sig .tc .vmem S1024x256 .f32) (h1 : a1.IsWhole)
    (a2 : Memref sig .tc .vmem S256x64 .bf16) (h2 : a2.IsWhole) (a3 : Memref sig .tc .vmem S1x64 .f32) (h3 : a3.IsWhole)
    (a4 : Memref sig .tc .vmem S1024x64 .f32) (h4 : a4.IsWhole) (a5 : Memref sig .tc .vmem S1x64 .f32) (h5 : a5.IsWhole)
    (hc : ¬cond0_0 i) (x0 : Vec F S1024x256 .f32) (x1 : Vec F S256x64 .bf16) (x2 : Vec F S1x64 .f32) (acc : Vec F S1x64 .f32) :
    out0_B_3 c i a1 h1 a2 h2 a3 h3 a4 h4 a5 h5 hc x0 x1 x2 acc = k0_pay2 x0 x1 x2 := by
  unfold out0_B_3
  rw [View.read_writes_eq_canon _ _ _ (cover0_B_3 c i a1 h1 a2 h2 a3 h3 a4 h4 a5 h5 hc x0 x1 x2 acc)]
  unfold kernelRun0_B
  dsimp only
  sl_unfold_words
  rw [View.canon_unit_zero hz]
  simp only [View.readAt_eq_ld, h1.read_unread, h2.read_unread, h3.read_unread, h5.read_unread,
    View.ld_unit_zero (S := S1024x256) hz, View.ld_unit_zero (S := S256x64) hz, View.ld_unit_zero (S := S1x64) hz]

/-- At a later point the column sums are the block's, added to what the point before left. -/
theorem later_sums (c : Dev nD) (i : grid0.Coords) (a1 : Memref sig .tc .vmem S1024x256 .f32) (h1 : a1.IsWhole)
    (a2 : Memref sig .tc .vmem S256x64 .bf16) (h2 : a2.IsWhole) (a3 : Memref sig .tc .vmem S1x64 .f32) (h3 : a3.IsWhole)
    (a4 : Memref sig .tc .vmem S1024x64 .f32) (h4 : a4.IsWhole) (a5 : Memref sig .tc .vmem S1x64 .f32) (h5 : a5.IsWhole)
    (hc : ¬cond0_0 i) (x0 : Vec F S1024x256 .f32) (x1 : Vec F S256x64 .bf16) (x2 : Vec F S1x64 .f32) (acc : Vec F S1x64 .f32) :
    out0_B_4 c i a1 h1 a2 h2 a3 h3 a4 h4 a5 h5 hc x0 x1 x2 acc = k0_pay3 x0 x1 x2 acc := by
  unfold out0_B_4
  rw [View.read_writes_eq_canon _ _ _ (cover0_B_4 c i a1 h1 a2 h2 a3 h3 a4 h4 a5 h5 hc x0 x1 x2 acc)]
  unfold kernelRun0_B
  dsimp only
  sl_unfold_words
  rw [View.canon_unit_zero hz]
  simp only [View.readAt_eq_ld, h1.read_unread, h2.read_unread, h3.read_unread, h5.read_unread,
    View.ld_unit_zero (S := S1024x256) hz, View.ld_unit_zero (S := S256x64) hz, View.ld_unit_zero (S := S1x64) hz]

/-- The second kernel's block: its one store. -/
theorem target_block (q : Vec F S1024x64 .f32) (s : Vec F S1x64 .f32) : out1_2 q s = k1_pay1 q s := by
  unfold out1_2
  rw [View.canon_unit_zero hz]
  simp only [View.ld_unit_zero (S := S1024x64) hz, View.ld_unit_zero (S := S1x64) hz]

end Cert.KernelIdeal.BodyValue

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.BlockValue.lean ====
/-
  The two kernels' arithmetic read at one entry, on the extended reals.

  First kernel, from a block `x0` of 1024 points (rows), the transposed centroids `x1` (256 × 64) and the centroids'
  squared norms `x2` (1 × 64). For row `r` and cluster `j` put

      blockSim r j = 1 / (1 + √(max (‖x0ᵣ‖² + x2ⱼ − 2 · ∑ₖ x0ᵣₖ · x1ₖⱼ) 0)).

  The assignment block at `(r, j)` is `blockSim r j` over the sum of `blockSim r ·` (row `r` normalised), and the column
  sums at `j` are what the buffer held before plus the sum of the assignment block's column `j`. The matrix product is
  the textbook contraction (a change of float format is the identity here), the row and column sums are plain sums, and
  the keep-dims casts and broadcasts only re-index.

  Second kernel, from an assignment block `q` and the column sums `s` (1 × 64): at `(r, j)` the quotient `qᵣⱼ² / sⱼ`
  over the sum of those quotients along row `r`.
-/
import proofs.«150530_j7000796692866_1_alg».proof.Proof.Gen.KernelIdeal.Skeleton
import proofs.«150530_j7000796692866_1_alg».proof.Proof.SoftAssign
import proofs.«150530_j7000796692866_1_alg».proof.Proof.LibKeepdims
import proofs.«150530_j7000796692866_1_alg».proof.Proof.LibColumnSum
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.ShloMosaic.ValueKeepdims

namespace Cert.KernelIdeal.BlockValue

open Cert.KernelIdeal Cert.KernelIdeal.Gen Cert.SoftAssign

/-! ## The block product at an entry -/

theorem lhs_row (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide),
    dif_pos (show (0 : Fin S1024x256.rank) ∈ dot_S1024x256_S256x64_S1024x64_1_0_0_1_n_n.lhsNonContracting by decide)]
  rfl

theorem lhs_contr (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q

theorem rhs_contr (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q

theorem rhs_col (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide),
    dif_pos (show (1 : Fin S256x64.rank) ∈ dot_S1024x256_S256x64_S1024x64_1_0_0_1_n_n.rhsNonContracting by decide)]
  rfl

/-- The product of a 1024 × 256 block with a 256 × 64 matrix into a zero accumulator, at `(r, j)`: `∑ₖ lhsᵣₖ · rhsₖⱼ`. -/
theorem matmul_at {φ₁ φ₂ : FTy} (lhs : FVec Ideal S1024x256 φ₁) (rhs : FVec Ideal S256x64 φ₂) (r : Fin 1024) (j : Fin 64) :
    matmul dot_S1024x256_S256x64_S1024x64_1_0_0_1_n_n none lhs rhs (constant (F := Ideal) S1024x64 .f32 0x00000000#32) (ix2 r j)
      = ∑ k : Fin 256, lhs (ix2 r k) * rhs (ix2 k j) := by
  simp only [matmul]
  rw [Ideal.matmul_constant_zero_apply, ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 r j) ((contrEquiv1 dot_S1024x256_S256x64_S1024x64_1_0_0_1_n_n 256 rfl rfl).symm k) = ix2 r k :=
    funext fun a => Fin.ext (by
      match a with
      | ⟨0, _⟩ => exact lhs_row _ _
      | ⟨1, _⟩ => exact (lhs_contr _ _).trans hk)
  have er : dot_S1024x256_S256x64_S1024x64_1_0_0_1_n_n.rhsIdx (ix2 r j) ((contrEquiv1 dot_S1024x256_S256x64_S1024x64_1_0_0_1_n_n 256 rfl rfl).symm k) = ix2 k j :=
    funext fun a => Fin.ext (by
      match a with
      | ⟨0, _⟩ => exact (rhs_contr _ _).trans hk
      | ⟨1, _⟩ => exact rhs_col _ _)
  rw [el, er]

/-- A row sum with the zero word as the printed accumulator. -/
theorem rowSum_at {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) :=
  multiReduction_add_row src 0x00000000#32 h hφ hacc i

/-! ## The first kernel -/

/-- The squared distance from the expanded square: `‖x0ᵣ‖² + x2ⱼ − 2 · (x0 · x1)ᵣⱼ`, as the kernel computes it. -/
def sqBlock (x0 : Vec Ideal S1024x256 .f32) (x1 : Vec Ideal S256x64 .bf16) (x2 : Vec Ideal S1x64 .f32) : FVec Ideal S1024x64 .f32 :=
  subf
    (addf
      (broadcastTo S1024x64 (shapeCast S1024x1 (multiReduction .add [1] S1024 (mulf x0 x0) 0x00000000#32 reduces_S1024x256_S1024 (.inl rfl) rfl) shapeCasts_S1024_S1024x1) broadcasts_S1024x1_S1024x64)
      (broadcastTo S1024x64 (shapeCast S1x64 x2 shapeCasts_S1x64_S1x64) broadcasts_S1x64_S1024x64))
    (mulf (broadcast S1024x64 (Scalar.ofBits (F := Ideal) .f32 0x40000000#32))
      (matmul dot_S1024x256_S256x64_S1024x64_1_0_0_1_n_n none (truncf .bf16 x0 bitsLt_bf16_f32 : FVec Ideal S1024x256 .bf16)
        (shapeCast S256x64 x1 shapeCasts_S256x64_S256x64 : FVec Ideal S256x64 .bf16) (constant (F := Ideal) S1024x64 .f32 0x00000000#32)))

/-- The unnormalised similarities of the block, as the kernel computes them. -/
def simBlock (x0 : Vec Ideal S1024x256 .f32) (x1 : Vec Ideal S256x64 .bf16) (x2 : Vec Ideal S1x64 .f32) : FVec Ideal S1024x64 .f32 :=
  divf (broadcast S1024x64 (Scalar.ofBits (F := Ideal) .f32 0x3F800000#32))
    (addf (broadcast S1024x64 (Scalar.ofBits (F := Ideal) .f32 0x3F800000#32))
      (sqrt (maximumf (sqBlock x0 x1 x2) (broadcast S1024x64 (Scalar.ofBits (F := Ideal) .f32 0x00000000#32)))))

/-- The assignment block is the similarities over their row sums kept as a column. -/
theorem assign_payload (x0 : Vec Ideal S1024x256 .f32) (x1 : Vec Ideal S256x64 .bf16) (x2 : Vec Ideal S1x64 .f32) :
    k0_pay2 (F := Ideal) x0 x1 x2 = divf (simBlock x0 x1 x2)
      (broadcastTo S1024x64 (shapeCast S1024x1 (multiReduction .add [1] S1024 (simBlock x0 x1 x2) 0x00000000#32 reduces_S1024x64_S1024 (.inl rfl) rfl) shapeCasts_S1024_S1024x1) broadcasts_S1024x1_S1024x64) := rfl

/-- The similarity of row `r` of the block to cluster `j`. -/
def blockSim (x0 : Vec Ideal S1024x256 .f32) (x1 : Vec Ideal S256x64 .bf16) (x2 : Vec Ideal S1x64 .f32) (r : Fin 1024) (j : Fin 64) : EReal :=
  Ideal.div one (one + Ideal.sqrt (max (((∑ k : Fin 256, x0 (ix2 r k) * x0 (ix2 r k)) + x2 (ix2 (0 : Fin 1) j))
    - two * ∑ k : Fin 256, x0 (ix2 r k) * x1 (ix2 k j)) (Ideal.ofBits .f32 0x00000000#32)))

theorem sqBlock_at (x0 : Vec Ideal S1024x256 .f32) (x1 : Vec Ideal S256x64 .bf16) (x2 : Vec Ideal S1x64 .f32) (r : Fin 1024) (j : Fin 64) :
    sqBlock x0 x1 x2 (ix2 r j) = ((∑ k : Fin 256, x0 (ix2 r k) * x0 (ix2 r k)) + x2 (ix2 (0 : Fin 1) j))
      - two * ∑ k : Fin 256, x0 (ix2 r k) * x1 (ix2 k j) := by
  unfold sqBlock
  rw [subf_apply, addf_apply, mulf_apply, broadcastTo_a1_ab_apply, shapeCast_a_a1_apply,
    broadcastTo_1b_ab_apply, shapeCast_self, matmul_at, shapeCast_self]
  refine congrArg (fun s => (s + x2 (ix2 (0 : Fin 1) j)) - two * ∑ k : Fin 256, x0 (ix2 r k) * x1 (ix2 k j)) ?_
  exact rowSum_at (mulf x0 x0) _ _ _ r

theorem simBlock_at (x0 : Vec Ideal S1024x256 .f32) (x1 : Vec Ideal S256x64 .bf16) (x2 : Vec Ideal S1x64 .f32) (r : Fin 1024) (j : Fin 64) :
    simBlock x0 x1 x2 (ix2 r j) = blockSim x0 x1 x2 r j := by
  unfold simBlock blockSim
  rw [divf_apply, addf_apply]
  show Ideal.div _ (_ + Ideal.sqrt (max (sqBlock x0 x1 x2 (ix2 r j)) _)) = _
  rw [sqBlock_at]
  rfl

/-- The assignment block at `(r, j)`: row `r`'s similarities normalised. -/
theorem assign_at (x0 : Vec Ideal S1024x256 .f32) (x1 : Vec Ideal S256x64 .bf16) (x2 : Vec Ideal S1x64 .f32) (r : Fin 1024) (j : Fin 64) :
    k0_pay2 (F := Ideal) x0 x1 x2 (ix2 r j) = normalize (blockSim x0 x1 x2 r) j := by
  rw [assign_payload, divf_apply, broadcastTo_a1_ab_apply, shapeCast_a_a1_apply, simBlock_at]
  unfold Cert.SoftAssign.normalize
  refine congrArg (Ideal.div _) ((rowSum_at (simBlock x0 x1 x2) _ _ _ r).trans ?_)
  exact Finset.sum_congr rfl fun j' _ => simBlock_at x0 x1 x2 r j'

/-- The column sums at `j`: what was there plus the assignment block's column `j`. -/
theorem sums_at (x0 : Vec Ideal S1024x256 .f32) (x1 : Vec Ideal S256x64 .bf16) (x2 : Vec Ideal S1x64 .f32) (acc : Vec Ideal S1x64 .f32) (j : Fin 64) :
    k0_pay3 (F := Ideal) x0 x1 x2 acc (ix2 (0 : Fin 1) j) = acc (ix2 (0 : Fin 1) j) + ∑ r : Fin 1024, k0_pay2 (F := Ideal) x0 x1 x2 (ix2 r j) := by
  unfold k0_pay3
  dsimp only
  rw [addf_apply, shapeCast_self, shapeCast_a_1a_apply]
  exact congrArg (acc (ix2 (0 : Fin 1) j) + ·) (colSum_at (k0_pay2 (F := Ideal) x0 x1 x2) _ _ _ j)

/-- The zero row at any entry. -/
theorem zero_row_at (y : S1x64.Idx) : k0_pay1 (F := Ideal) y = Ideal.ofBits .f32 0x00000000#32 := rfl

/-! ## The second kernel -/

/-- `qᵣⱼ² / sⱼ` as the kernel computes it. -/
def ratioBlock (q : Vec Ideal S1024x64 .f32) (s : Vec Ideal S1x64 .f32) : FVec Ideal S1024x64 .f32 :=
  divf (mulf (shapeCast S1024x64 q shapeCasts_S1024x64_S1024x64) (shapeCast S1024x64 q shapeCasts_S1024x64_S1024x64))
    (broadcastTo S1024x64 (shapeCast S1x64 s shapeCasts_S1x64_S1x64) broadcasts_S1x64_S1024x64)

theorem target_payload (q : Vec Ideal S1024x64 .f32) (s : Vec Ideal S1x64 .f32) :
    k1_pay1 (F := Ideal) q s = divf (ratioBlock q s)
      (broadcastTo S1024x64 (shapeCast S1024x1 (multiReduction .add [1] S1024 (ratioBlock q s) 0x00000000#32 reduces_S1024x64_S1024 (.inl rfl) rfl) shapeCasts_S1024_S1024x1) broadcasts_S1024x1_S1024x64) := rfl

theorem ratioBlock_at (q : Vec Ideal S1024x64 .f32) (s : Vec Ideal S1x64 .f32) (r : Fin 1024) (j : Fin 64) :
    ratioBlock q s (ix2 r j) = Ideal.div (q (ix2 r j) * q (ix2 r j)) (s (ix2 (0 : Fin 1) j)) := by
  unfold ratioBlock
  rw [divf_apply, mulf_apply, shapeCast_self, broadcastTo_1b_ab_apply, shapeCast_self]

/-- The target block at `(r, j)`: row `r`'s quotients normalised. -/
theorem target_at (q : Vec Ideal S1024x64 .f32) (s : Vec Ideal S1x64 .f32) (r : Fin 1024) (j : Fin 64) :
    k1_pay1 (F := Ideal) q s (ix2 r j)
      = normalize (fun j' => Ideal.div (q (ix2 r j') * q (ix2 r j')) (s (ix2 (0 : Fin 1) j'))) j := by
  rw [target_payload, divf_apply, broadcastTo_a1_ab_apply, shapeCast_a_a1_apply, ratioBlock_at]
  unfold Cert.SoftAssign.normalize
  refine congrArg (Ideal.div _) ((rowSum_at (ratioBlock q s) _ _ _ r).trans ?_)
  exact Finset.sum_congr rfl fun j' _ => ratioBlock_at q s r j'

end Cert.KernelIdeal.BlockValue

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.DistanceLaw.lean ====
/-
  The two ways of writing the similarity `(1 + ‖x − y‖)⁻¹` agree on real vectors, and a sum over 8192 rows splits
  into 8 blocks of 1024.

  For real vectors `a`, `b` in ℝ²⁵⁶ put `D = ∑ₖ (aₖ − bₖ)²`. Then `∑ₖ aₖ² + ∑ₖ bₖ² − 2 ∑ₖ aₖ bₖ = D` (expand the square
  termwise) and `D ≥ 0`, so `max D 0 = D`; the root of a nonnegative real is the real root; `1 + √D > 0`, so the
  division `1 / (1 + √D)` is the real reciprocal, and so is the power `(1 + √D / 1) ^ (−1)`. All of this is arithmetic
  of REAL numbers read inside the extended reals: every coercion is pushed outwards first.
-/
import proofs.«150530_j7000796692866_1_alg».proof.Proof.SoftAssign
import proofs.«150530_j7000796692866_1_alg».proof.Proof.LibERealSum
import Mathlib.Analysis.SpecialFunctions.Pow.Real
import Mathlib.Algebra.BigOperators.Fin
import Mathlib.Tactic.Ring
import Mathlib.Tactic.Positivity
import Mathlib.Tactic.NormNum

noncomputable section

namespace Cert.SoftAssign

open Idealize.ShloMosaic

/-- The f32 pattern `0x3F800000` is the real number 1. -/
theorem one_eq : one = ((1 : ℝ) : EReal) := by
  simp [Ideal.ofBits, Ideal.ieee, -EReal.coe_mul]; norm_num

/-- The f32 pattern `0x40000000` is the real number 2. -/
theorem two_eq : two = ((2 : ℝ) : EReal) := by
  simp [Ideal.ofBits, Ideal.ieee, -EReal.coe_mul]; norm_num

/-- The f32 pattern `0xBF800000` is the real number −1. -/
theorem negOne_eq : negOne = ((-1 : ℝ) : EReal) := by
  simp [Ideal.ofBits, Ideal.ieee, -EReal.coe_mul]; norm_num

/-- Expanding the square: `∑ a² + ∑ b² − 2 ∑ a b = ∑ (a − b)²` on real numbers. -/
theorem expand_sq (a b : Fin 256 → ℝ) :
    (∑ k, a k * a k) + (∑ k, b k * b k) - 2 * ∑ k, a k * b k = ∑ k, (a k - b k) * (a k - b k) := by
  rw [Finset.mul_sum, ← Finset.sum_add_distrib, ← Finset.sum_sub_distrib]
  exact Finset.sum_congr rfl fun k _ => by ring

/-- On real vectors the similarity from the expanded square is `(1 + √D)⁻¹`, `D = ∑ (a − b)²`. -/
theorem simExpand_coe (a b : Fin 256 → ℝ) :
    simExpand (fun k => (a k : EReal)) (fun k => (b k : EReal))
      = (((1 + Real.sqrt (∑ k, (a k - b k) * (a k - b k)))⁻¹ : ℝ) : EReal) := by
  have hD0 : (0 : ℝ) ≤ ∑ k, (a k - b k) * (a k - b k) := Finset.sum_nonneg fun k _ => mul_self_nonneg _
  have hD0' : (0 : EReal) ≤ ((∑ k, (a k - b k) * (a k - b k) : ℝ) : EReal) := by exact_mod_cast hD0
  have hpos : (1 : ℝ) + Real.sqrt (∑ k, (a k - b k) * (a k - b k)) ≠ 0 := by positivity
  unfold simExpand
  rw [one_eq, two_eq]
  simp only [← EReal.coe_mul, ← Cert.Lib.ERealSum.coe_sum, ← EReal.coe_add, ← EReal.coe_sub]
  rw [expand_sq, max_eq_left hD0', Ideal.sqrt_coe, if_neg (not_lt.mpr hD0),
    ← EReal.coe_add, Ideal.div_coe hpos, ← EReal.coe_mul, one_mul, one_div]

/-- On real vectors the similarity from the difference vector is `(1 + √D)⁻¹`, `D = ∑ (a − b)²`. -/
theorem simDiff_coe (a b : Fin 256 → ℝ) :
    simDiff (fun k => (a k : EReal)) (fun k => (b k : EReal))
      = (((1 + Real.sqrt (∑ k, (a k - b k) * (a k - b k)))⁻¹ : ℝ) : EReal) := by
  have hD0 : (0 : ℝ) ≤ ∑ k, (a k - b k) * (a k - b k) := Finset.sum_nonneg fun k _ => mul_self_nonneg _
  unfold simDiff
  rw [one_eq, negOne_eq]
  simp only [← EReal.coe_mul, ← Cert.Lib.ERealSum.coe_sum, ← EReal.coe_sub]
  rw [Ideal.sqrt_coe, if_neg (not_lt.mpr hD0), Ideal.div_coe one_ne_zero, ← EReal.coe_mul, ← EReal.coe_add,
    Ideal.pow_coe_coe, div_one, mul_one]
  exact congrArg _ (Real.rpow_neg_one _)

/-- The two ways of writing the similarity agree wherever every coordinate is a real number. -/
theorem simExpand_eq_simDiff (x y : Fin 256 → EReal) (hx : ∀ k, ∃ r : ℝ, x k = (r : EReal))
    (hy : ∀ k, ∃ r : ℝ, y k = (r : EReal)) : simExpand x y = simDiff x y := by
  choose a ha using hx
  choose b hb using hy
  obtain rfl : x = fun k => (a k : EReal) := funext ha
  obtain rfl : y = fun k => (b k : EReal) := funext hb
  rw [simExpand_coe, simDiff_coe]

/-- A sum over 8192 rows, block by block: 8 blocks of 1024 consecutive rows (`i = 1024 t + r`; the pairs `(t, r)` and the
    rows correspond one to one). -/
theorem sum_rowBlocks {M : Type*} [AddCommMonoid M] (f : Fin 8192 → M) :
    ∑ i : Fin 8192, f i = ∑ t : Fin 8, ∑ r : Fin 1024, f ⟨1024 * t.val + r.val, by omega⟩ := by
  rw [← Equiv.sum_comp (finProdFinEquiv : Fin 8 × Fin 1024 ≃ Fin 8192) f, Fintype.sum_prod_type]
  refine Finset.sum_congr rfl fun t _ => Finset.sum_congr rfl fun r _ => congrArg f (Fin.ext ?_)
  show (r : ℕ) + 1024 * (t : ℕ) = 1024 * (t : ℕ) + (r : ℕ)
  omega

end Cert.SoftAssign

end
-- ==== Proof.ColumnChain.lean ====
/-
  The column sums of the assignment matrix, accumulated block by block.

  The 8192 rows are cut into 8 blocks of 1024 consecutive rows. Starting from zero, add the sum of column `j` over block 0,
  then over block 1, … : after the last block the running sum is the sum of the whole column, because a sum over the rows is
  the sum over the blocks of the sums within each block, and addition of extended reals is associative with `0` neutral.
-/
import proofs.«150530_j7000796692866_1_alg».proof.Proof.DistanceLaw
import Idealize.ShloMosaic.PureOps.Ideal.Laws

noncomputable section

namespace Cert.SoftAssign

open Idealize.ShloMosaic

/-- The sum of column j over row block t (rows 1024·t … 1024·t + 1023). -/
def blockSum (q : Fin 8192 → Fin 64 → EReal) (j : Fin 64) (t : ℕ) (ht : t < 8) : EReal :=
  ∑ r : Fin 1024, q ⟨1024 * t + r.val, by omega⟩ j

/-- The running sums, block after block, from the zero word. -/
def colChain (q : Fin 8192 → Fin 64 → EReal) (j : Fin 64) : (n : ℕ) → n < 8 → EReal
  | 0, h => Ideal.ofBits .f32 0x00000000#32 + blockSum q j 0 h
  | n + 1, h => colChain q j n (Nat.lt_of_succ_lt h) + blockSum q j (n + 1) h

/-- After the last block the running sum is the whole column sum. -/
theorem colChain_last (q : Fin 8192 → Fin 64 → EReal) (j : Fin 64) : colChain q j 7 (by decide) = colMass q j := by
  unfold colMass
  rw [sum_rowBlocks (fun i => q i j), Fin.sum_univ_eight]
  simp only [colChain, blockSum, Ideal.ofBits_zero_f32, zero_add]
  rfl

end Cert.SoftAssign

end
-- ==== Proof.AssignArray.lean ====
/-
  What the first kernel's two result arrays hold when its region ends, for ANY contents `V` the region is entered with.

  The region walks eight row blocks of 1024 points. Write `Z` for the points' array, `CT` for the transposed centroids and
  `CC` for the row of the centroids' squared norms, as the region finds them, and
  `arraySim i j = 1 / (1 + √(max (‖Zᵢ‖² + CCⱼ − 2 · ∑ₖ Zᵢₖ · CTₖⱼ) 0))`.

  * Every point, first or later, leaves in the assignment block its rows' similarities normalised; a row of the block at
    point `t` is row `1024·t + r` of `Z`, the other two operands are whole at every point; the blocks are written back at
    every point and tile the array: the assignment array ends at `normalize (arraySim i ·) j` at `(i, j)`.
  * The column sums' block never moves and is written back once, after the last point. What it holds after point `n` is,
    by induction on the point, the zero word plus the first `n + 1` blocks' column sums added one after the other
    (`SoftAssign.colChain`); after the last point that is the whole column sum.
-/
import proofs.«150530_j7000796692866_1_alg».proof.Proof.Gen.KernelIdeal.Frame
import proofs.«150530_j7000796692866_1_alg».proof.Proof.BodyValue
import proofs.«150530_j7000796692866_1_alg».proof.Proof.BlockValue
import proofs.«150530_j7000796692866_1_alg».proof.Proof.ColumnChain
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.AssignArray

open Cert.KernelIdeal Cert.KernelIdeal.Gen Cert.SoftAssign

/-! ## What each point leaves, at any float instance -/

section AnyInstance

variable {F : FTy → Type} [FloatOps F]
variable (V : (c : Dev nD) → (b : Ref sig .tc) → Buf (Elt F) ((c : Thread nD τ).loc b))

/-- Every point leaves in the assignment block the kernel's arithmetic of the three blocks it loaded. -/
theorem assign_after (c : Dev nD) (t : Fin cfg0.N) :
    (outsAt0 V c t.val t.isLt).1 = k0_pay2 (iblk0 V c 0 t) (iblk0 V c 1 t) (iblk0 V c 2 t) := by
  by_cases h0 : t.val % 8 = 0
  · rw [outsAt0_A V c t h0]
    dsimp only
    exact BodyValue.first_assign c (grid0.coords t) (ms0_0 t) (hs0_0 t) (ms0_1 t) (hs0_1 t) (ms0_2 t) (hs0_2 t) (ms0_3 t)
      (hs0_3 t) (ms0_4 t) (hs0_4 t) ((hcond0_0 t).mpr h0) (iblk0 V c 0 t) (iblk0 V c 1 t) (iblk0 V c 2 t)
  · rw [outsAt0_B V c t h0]
    dsimp only
    exact BodyValue.later_assign c (grid0.coords t) (ms0_0 t) (hs0_0 t) (ms0_1 t) (hs0_1 t) (ms0_2 t) (hs0_2 t) (ms0_3 t)
      (hs0_3 t) (ms0_4 t) (hs0_4 t) (fun h => h0 ((hcond0_0 t).mp h)) (iblk0 V c 0 t) (iblk0 V c 1 t) (iblk0 V c 2 t) _

/-- The running column sums after point `n`: the first point adds its block's to the zero row, a later one to what the
    point before left. -/
def sumsAt (c : Dev nD) : (n : ℕ) → n < cfg0.N → Vec F S1x64 .f32
  | 0, h => k0_pay3 (iblk0 V c 0 ⟨0, h⟩) (iblk0 V c 1 ⟨0, h⟩) (iblk0 V c 2 ⟨0, h⟩) k0_pay1
  | n + 1, h => k0_pay3 (iblk0 V c 0 ⟨n + 1, h⟩) (iblk0 V c 1 ⟨n + 1, h⟩) (iblk0 V c 2 ⟨n + 1, h⟩)
      (sumsAt c n (Nat.lt_of_succ_lt h))

/-- What the column sums' block holds after point `n` is that running sum, by induction on the point. -/
theorem sums_after (c : Dev nD) : ∀ (n : ℕ) (h : n < cfg0.N), (outsAt0 V c n h).2 = sumsAt V c n h
  | 0, h => by
    rw [outsAt0_A V c ⟨0, h⟩ rfl]
    dsimp only
    exact BodyValue.first_sums c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩)
      ((hcond0_0 ⟨0, h⟩).mpr rfl) (iblk0 V c 0 ⟨0, h⟩) (iblk0 V c 1 ⟨0, h⟩) (iblk0 V c 2 ⟨0, h⟩)
  | n + 1, h => by
    have hN : cfg0.N = 8 := N_0
    have hB : ¬(⟨n + 1, h⟩ : Fin cfg0.N).val % 8 = 0 := by dsimp only; omega
    rw [outsAt0_B V c ⟨n + 1, h⟩ hB]
    dsimp only
    refine (BodyValue.later_sums c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
      (hs0_4 ⟨n + 1, h⟩) (fun hc => hB ((hcond0_0 ⟨n + 1, h⟩).mp hc)) (iblk0 V c 0 ⟨n + 1, h⟩) (iblk0 V c 1 ⟨n + 1, h⟩)
      (iblk0 V c 2 ⟨n + 1, h⟩) _).trans ?_
    show k0_pay3 _ _ _ (outsAt0 V c n _).2 = k0_pay3 _ _ _ (sumsAt V c n _)
    rw [sums_after c n]

/-- The printed index maps, decided over the grid: the points' and the assignment's windows walk the row blocks, the other
    three stay on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-- A row of the points' block at point `t` is row `1024·t + r` of the array. -/
theorem points_block (c : Dev nD) (t : Fin cfg0.N) (i : Fin 8192) (r : Fin 1024) (hi : i.val = 1024 * t.val + r.val) (k : Fin 256) :
    (iblk0 V c 0 t : Vec F S1024x256 .f32) (ix2 r k) = V c (Pipeline.arrRef spec0 0) (ix2 i k) := by
  unfold iblk0
  rw [View.read_apply]
  refine congrArg (V c (Pipeline.arrRef spec0 0)) ?_
  obtain ⟨e0, e1, -⟩ := idx_facts t
  funext a; apply Fin.ext
  match a with
  | ⟨0, _⟩ => show win0_0.index t (0 : Fin 2) * 1024 + 1 * r.val = i.val; omega
  | ⟨1, _⟩ => show win0_0.index t (1 : Fin 2) * 256 + 1 * k.val = k.val; omega

/-- The transposed centroids' block is the whole array at every point. -/
theorem centroids_block (c : Dev nD) (t : Fin cfg0.N) (k : Fin 256) (j : Fin 64) :
    (iblk0 V c 1 t : Vec F S256x64 .bf16) (ix2 k j) = V c (Pipeline.arrRef spec0 1) (ix2 k j) := by
  unfold iblk0
  rw [View.read_apply]
  refine congrArg (V c (Pipeline.arrRef spec0 1)) ?_
  obtain ⟨-, -, e2, e3, -⟩ := idx_facts t
  funext a; apply Fin.ext
  match a with
  | ⟨0, _⟩ => show win0_1.index t (0 : Fin 2) * 256 + 1 * k.val = k.val; omega
  | ⟨1, _⟩ => show win0_1.index t (1 : Fin 2) * 64 + 1 * j.val = j.val; omega

/-- The squared norms' block is the whole row at every point. -/
theorem norms_block (c : Dev nD) (t : Fin cfg0.N) (j : Fin 64) :
    (iblk0 V c 2 t : Vec F S1x64 .f32) (ix2 (0 : Fin 1) j) = V c (Pipeline.arrRef spec0 2) (ix2 (0 : Fin 1) j) := by
  unfold iblk0
  rw [View.read_apply]
  refine congrArg (V c (Pipeline.arrRef spec0 2)) ?_
  obtain ⟨-, -, -, -, e4, e5, -⟩ := idx_facts t
  funext a; apply Fin.ext
  match a with
  | ⟨0, _⟩ => show win0_2.index t (0 : Fin 2) * 1 + 1 * 0 = 0; omega
  | ⟨1, _⟩ => show win0_2.index t (1 : Fin 2) * 64 + 1 * j.val = j.val; omega

end AnyInstance

/-! ## The two arrays on the extended reals -/

variable (V : (c : Dev nD) → (b : Ref sig .tc) → Buf (Elt Ideal) ((c : Thread nD τ).loc b))

/-- The similarity of point `i` to cluster `j` from the whole arrays. -/
def arraySim (Z : S8192x256.Idx → EReal) (CT : S256x64.Idx → EReal) (CC : S1x64.Idx → EReal) (i : Fin 8192) (j : Fin 64) : EReal :=
  Ideal.div one (one + Ideal.sqrt (max (((∑ k : Fin 256, Z (ix2 i k) * Z (ix2 i k)) + CC (ix2 (0 : Fin 1) j))
    - two * ∑ k : Fin 256, Z (ix2 i k) * CT (ix2 k j)) (Ideal.ofBits .f32 0x00000000#32)))

/-- A block's similarity is the arrays' where the block's entries are the arrays'. -/
theorem blockSim_eq (x0 : Vec Ideal S1024x256 .f32) (x1 : Vec Ideal S256x64 .bf16) (x2 : Vec Ideal S1x64 .f32)
    (Z : S8192x256.Idx → EReal) (CT : S256x64.Idx → EReal) (CC : S1x64.Idx → EReal) (i : Fin 8192) (r : Fin 1024)
    (h0 : ∀ k, x0 (ix2 r k) = Z (ix2 i k)) (h1 : ∀ k j, x1 (ix2 k j) = CT (ix2 k j))
    (h2 : ∀ j, x2 (ix2 (0 : Fin 1) j) = CC (ix2 (0 : Fin 1) j)) (j : Fin 64) :
    BlockValue.blockSim x0 x1 x2 r j = arraySim Z CT CC i j := by
  unfold BlockValue.blockSim arraySim
  simp only [h0, h1, h2]

/-- The assignment of point `i` to cluster `j` from the whole arrays. -/
def assignFn (Z : S8192x256.Idx → EReal) (CT : S256x64.Idx → EReal) (CC : S1x64.Idx → EReal) : Fin 8192 → Fin 64 → EReal :=
  fun i j => normalize (arraySim Z CT CC i) j

/-- The three arrays as region 0 finds them. -/
abbrev Z (c : Dev nD) : S8192x256.Idx → EReal := V c (Pipeline.arrRef spec0 0)
abbrev CT (c : Dev nD) : S256x64.Idx → EReal := V c (Pipeline.arrRef spec0 1)
abbrev CC (c : Dev nD) : S1x64.Idx → EReal := V c (Pipeline.arrRef spec0 2)

/-- An entry of the block point `t` leaves is the assignment of the array's row `1024·t + r`. -/
theorem assign_entry (c : Dev nD) (t : Fin cfg0.N) (i : Fin 8192) (r : Fin 1024) (hi : i.val = 1024 * t.val + r.val) (j : Fin 64) :
    k0_pay2 (F := Ideal) (iblk0 V c 0 t) (iblk0 V c 1 t) (iblk0 V c 2 t) (ix2 r j) = assignFn (Z V c) (CT V c) (CC V c) i j := by
  refine (BlockValue.assign_at (iblk0 V c 0 t) (iblk0 V c 1 t) (iblk0 V c 2 t) r j).trans ?_
  unfold assignFn
  refine congrArg (fun q => normalize q j) (funext fun j' => ?_)
  exact blockSim_eq (iblk0 V c 0 t) (iblk0 V c 1 t) (iblk0 V c 2 t) (Z V c) (CT V c) (CC V c) i r
    (points_block V c t i r hi) (centroids_block V c t) (norms_block V c t) j'

/-- What point `t` writes back is block `t` of the assignment. -/
theorem flushed_assign (c : Dev nD) (t : Fin cfg0.N) :
    (dat0 V c).flushed 3 t = ((cfg0.win 3).blk t).view.read (Elt Ideal)
      (fun idx : S8192x64.Idx => assignFn (Z V c) (CT V c) (CC V c) (idx 0) (idx 1)) := by
  show (cfg0.win 3).cut (grid0.coords t) ((dat0 V c).after 3 t) = _
  rw [after0_3, assign_after]
  funext y
  have hN : cfg0.N = 8 := N_0
  have ht : t.val < 8 := lt_of_lt_of_eq t.isLt hN
  obtain ⟨-, -, -, -, -, -, e6, e7, -⟩ := idx_facts t
  show k0_pay2 (F := Ideal) (iblk0 V c 0 t) (iblk0 V c 1 t) (iblk0 V c 2 t) y
    = assignFn (Z V c) (CT V c) (CC V c) ((((cfg0.win 3).blk t).view.emb y) 0) ((((cfg0.win 3).blk t).view.emb y) 1)
  have hy0 : (y 0).val < 1024 := (y 0).isLt
  have hy1 : (y 1).val < 64 := (y 1).isLt
  have hr : ((((cfg0.win 3).blk t).view.emb y) 0).val = 1024 * t.val + (y 0).val := by
    show win0_3.index t (0 : Fin 2) * 1024 + 1 * (y 0).val = _; omega
  have hc : ((((cfg0.win 3).blk t).view.emb y) 1).val = (y 1).val := by
    show win0_3.index t (1 : Fin 2) * 64 + 1 * (y 1).val = _; omega
  have ey : y = ix2 (⟨(y 0).val, hy0⟩ : Fin 1024) (⟨(y 1).val, hy1⟩ : Fin 64) :=
    funext fun a => Fin.ext (by match a with | ⟨0, _⟩ => rfl | ⟨1, _⟩ => rfl)
  rw [ey]
  refine (assign_entry V c t ⟨1024 * t.val + (y 0).val, by omega⟩ ⟨(y 0).val, hy0⟩ rfl ⟨(y 1).val, hy1⟩).trans ?_
  exact congrArg₂ (assignFn (Z V c) (CT V c) (CC V c)) (Fin.ext hr.symm) (Fin.ext hc.symm)

/-- An index is in point `t`'s block iff each coordinate is in the block's range. -/
theorem mem_blk (t : Fin cfg0.N) (i : S8192x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v5_0).slice (win0_3.rect t)).set ↔ _
  rw [View.set_slice_whole, Rect.mem_set_unit]
  exact Iff.rfl

/-- THE ASSIGNMENT ARRAY when the region ends: row `i`'s similarities normalised. -/
theorem assign_array (c : Dev nD) : (dat0 V c).arrAt 3 cfg0.N
    = fun idx : S8192x64.Idx => assignFn (Z V c) (CT V c) (CC V c) (idx 0) (idx 1) :=
  (dat0 V c).arrAt_eq_of_cover 3 _ (fun t _ => flushed_assign V c t) fun i => by
    have hi0 : (i 0).val < 8192 := (i 0).isLt
    have hi1 : (i 1).val < 64 := (i 1).isLt
    have hN : cfg0.N = 8 := N_0
    have hlt : (i 0).val / 1024 < cfg0.N := by omega
    obtain ⟨-, -, -, -, -, -, e6, e7, -⟩ := idx_facts ⟨(i 0).val / 1024, hlt⟩
    refine ⟨⟨(i 0).val / 1024, hlt⟩, flush0_3 _, ?_⟩
    rw [mem_blk]
    intro a
    match a with
    | ⟨0, _⟩ =>
      show win0_3.index ⟨(i 0).val / 1024, hlt⟩ (0 : Fin 2) * 1024 ≤ (i 0).val
        ∧ (i 0).val < win0_3.index ⟨(i 0).val / 1024, hlt⟩ (0 : Fin 2) * 1024 + 1024
      rw [e6]; dsimp only; omega
    | ⟨1, _⟩ =>
      show win0_3.index ⟨(i 0).val / 1024, hlt⟩ (1 : Fin 2) * 64 ≤ (i 1).val
        ∧ (i 1).val < win0_3.index ⟨(i 0).val / 1024, hlt⟩ (1 : Fin 2) * 64 + 64
      rw [e7]; omega

/-! ## The column sums -/

/-- The running sums after point `n`, at cluster `j`: the zero word and the first `n + 1` blocks' column sums of the
    assignment, added one after the other. -/
theorem sumsAt_entry (c : Dev nD) (j : Fin 64) : ∀ (n : ℕ) (h : n < cfg0.N),
    sumsAt V c n h (ix2 (0 : Fin 1) j)
      = colChain (assignFn (Z V c) (CT V c) (CC V c)) j n (lt_of_lt_of_eq h N_0)
  | 0, h => by
    have hN : cfg0.N = 8 := N_0
    refine (BlockValue.sums_at (iblk0 V c 0 ⟨0, h⟩) (iblk0 V c 1 ⟨0, h⟩) (iblk0 V c 2 ⟨0, h⟩) (k0_pay1 (F := Ideal)) j).trans ?_
    simp only [colChain]
    refine congrArg₂ (· + ·) rfl ?_
    unfold blockSum
    exact Finset.sum_congr rfl fun r _ =>
      assign_entry V c ⟨0, h⟩ ⟨1024 * 0 + r.val, by have := r.isLt; omega⟩ r rfl j
  | n + 1, h => by
    have hN : cfg0.N = 8 := N_0
    refine (BlockValue.sums_at (iblk0 V c 0 ⟨n + 1, h⟩) (iblk0 V c 1 ⟨n + 1, h⟩) (iblk0 V c 2 ⟨n + 1, h⟩)
      (sumsAt V c n (Nat.lt_of_succ_lt h)) j).trans ?_
    simp only [colChain]
    refine congrArg₂ (· + ·) (sumsAt_entry c j n (Nat.lt_of_succ_lt h)) ?_
    unfold blockSum
    exact Finset.sum_congr rfl fun r _ =>
      assign_entry V c ⟨n + 1, h⟩ ⟨1024 * (n + 1) + r.val, by have := r.isLt; omega⟩ r rfl j

/-- The one write-back of the column sums, after the last point, writes the whole column sums of the assignment. -/
theorem flushed_sums (c : Dev nD) (t : Fin cfg0.N) (hf : (cfg0.win 4).flush t = true) :
    (dat0 V c).flushed 4 t = ((cfg0.win 4).blk t).view.read (Elt Ideal)
      (fun y : S1x64.Idx => colMass (assignFn (Z V c) (CT V c) (CC V c)) (y 1)) := by
  have hN : cfg0.N = 8 := N_0
  obtain ⟨tv, htv⟩ := t
  have h7 : tv = 7 := by have := (flush0_4 ⟨tv, htv⟩).mp hf; dsimp only at this; omega
  subst h7
  show (cfg0.win 4).cut (grid0.coords ⟨7, htv⟩) ((dat0 V c).after 4 ⟨7, htv⟩) = _
  rw [after0_4, sums_after]
  funext y
  obtain ⟨-, -, -, -, -, -, -, -, e8, e9⟩ := idx_facts ⟨7, htv⟩
  show sumsAt V c 7 htv y
    = colMass (assignFn (Z V c) (CT V c) (CC V c)) ((((cfg0.win 4).blk ⟨7, htv⟩).view.emb y) 1)
  have hy0 : (y 0).val < 1 := (y 0).isLt
  have hy1 : (y 1).val < 64 := (y 1).isLt
  have hc : ((((cfg0.win 4).blk ⟨7, htv⟩).view.emb y) 1).val = (y 1).val := by
    show win0_4.index ⟨7, htv⟩ (1 : Fin 2) * 64 + 1 * (y 1).val = _; omega
  have ey : y = ix2 (0 : Fin 1) (⟨(y 1).val, hy1⟩ : Fin 64) :=
    funext fun a => Fin.ext (by
      match a with
      | ⟨0, _⟩ => show (y 0).val = 0; omega
      | ⟨1, _⟩ => rfl)
  refine (congrArg (sumsAt V c 7 htv) ey).trans ?_
  refine (sumsAt_entry V c ⟨(y 1).val, hy1⟩ 7 htv).trans ?_
  refine (colChain_last (assignFn (Z V c) (CT V c) (CC V c)) ⟨(y 1).val, hy1⟩).trans ?_
  exact congrArg (colMass (assignFn (Z V c) (CT V c) (CC V c))) (Fin.ext hc.symm)

/-- THE COLUMN SUMS' ARRAY when the region ends: the soft cluster sizes. -/
theorem sums_array (c : Dev nD) : (dat0 V c).arrAt 4 cfg0.N
    = fun y : S1x64.Idx => colMass (assignFn (Z V c) (CT V c) (CC V c)) (y 1) :=
  (dat0 V c).arrAt_eq_of_cover 4 _ (fun t hf => flushed_sums V c t hf) fun i => by
    have hN : cfg0.N = 8 := N_0
    have h7 : 7 < cfg0.N := by omega
    have hi0 : (i 0).val < 1 := (i 0).isLt
    have hi1 : (i 1).val < 64 := (i 1).isLt
    obtain ⟨-, -, -, -, -, -, -, -, e8, e9⟩ := idx_facts ⟨7, h7⟩
    refine ⟨⟨7, h7⟩, (flush0_4 ⟨7, h7⟩).mpr rfl, ?_⟩
    show i ∈ ((View.whole main_v5_1).slice (win0_4.rect ⟨7, h7⟩)).set
    rw [View.set_slice_whole, Rect.mem_set_unit]
    intro a
    match a with
    | ⟨0, _⟩ =>
      show win0_4.index ⟨7, h7⟩ (0 : Fin 2) * 1 ≤ (i 0).val ∧ (i 0).val < win0_4.index ⟨7, h7⟩ (0 : Fin 2) * 1 + 1
      omega
    | ⟨1, _⟩ =>
      show win0_4.index ⟨7, h7⟩ (1 : Fin 2) * 64 ≤ (i 1).val ∧ (i 1).val < win0_4.index ⟨7, h7⟩ (1 : Fin 2) * 64 + 64
      omega

end Cert.KernelIdeal.AssignArray

end
-- ==== Proof.EntryArrays.lean ====
/-
  The three arrays the first region is entered with, read back to the two arguments `z` (the points) and `c` (the
  centroids), and the similarity they give.

  Before the first region the host computes, from the centroids alone, the row of their squared norms (`∑ₖ cⱼₖ²`, a sum
  from the zero word, kept as a 1 × 64 row) and their transpose after a change of float format (the identity on the
  extended reals): the transposed array at `(k, j)` is `cⱼₖ`. The points' array is the argument itself. So the similarity
  the first kernel computes from the arrays it finds is `SoftAssign.simExpand zᵢ cⱼ`.
-/
import proofs.«150530_j7000796692866_1_alg».proof.Proof.Gen.KernelIdeal.Frame
import proofs.«150530_j7000796692866_1_alg».proof.Proof.AssignArray
import Idealize.ShloMosaic.Lib.StableHlo.Run
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.EntryArrays

open Cert.KernelIdeal Cert.KernelIdeal.Gen Cert.SoftAssign

variable (m : (ℓ : Loc nD τ sig) → Buf (Elt Ideal) ℓ) (ρ : Dev nD → PrngReg)

/-- The points, as launched. -/
abbrev pts (c : Dev nD) : S8192x256.Idx → EReal := m ((c : Thread nD τ).loc main_arg0)
/-- The centroids, as launched. -/
abbrev cen (c : Dev nD) : S64x256.Idx → EReal := m ((c : Thread nD τ).loc main_arg1)

/-- The points' array is untouched by the host operations. -/
theorem points_entry (c : Dev nD) : V1 m ρ c (Pipeline.arrRef spec0 0) = m ((c : Thread nD τ).loc main_arg0) := by
  show StableHlo.after hostOps0 (W0 m ρ c) (Proc.devRef .tc main_arg0) = _
  after_results

/-- The second operand is the centroids' transpose. -/
theorem centroidsT_entry (c : Dev nD) :
    (V1 m ρ c (Pipeline.arrRef spec0 1) : S256x64.Idx → EReal)
      = transpose S256x64 [1, 0] (truncf .bf16 (m ((c : Thread nD τ).loc main_arg1)) bitsLt_bf16_f32 : FVec Ideal S64x256 .bf16)
          transposes_S64x256_S256x64_1_0 := by
  show StableHlo.after hostOps0 (W0 m ρ c) (Proc.devRef .tc main_v4) = _
  after_results

/-- The third operand is the centroids' squared norms, summed from the zero word and kept as a row. -/
theorem norms_entry (c : Dev nD) :
    (V1 m ρ c (Pipeline.arrRef spec0 2) : S1x64.Idx → EReal)
      = shapeCast S1x64 (Host.reduceAdd (F := Ideal) (mulf (cen m c) (cen m c)) (constant (F := Ideal) S_ .f32 0x00000000#32)
          reducesTo_S64x256_S64_d1 h_S_) shapeCasts_S64_S1x64 := by
  show StableHlo.after hostOps0 (W0 m ρ c) (Proc.devRef .tc main_v2) = _
  after_results
  rfl

/-- The transposed array at `(k, j)` is the centroids' at `(j, k)`. -/
theorem centroidsT_at (c : Dev nD) (k : Fin 256) (j : Fin 64) :
    (V1 m ρ c (Pipeline.arrRef spec0 1) : S256x64.Idx → EReal) (ix2 k j) = cen m c (ix2 j k) := by
  rw [centroidsT_entry]
  exact transpose_ix2_apply _ _ k j

/-- The row of squared norms at `j`. -/
theorem norms_at (c : Dev nD) (j : Fin 64) :
    (V1 m ρ c (Pipeline.arrRef spec0 2) : S1x64.Idx → EReal) (ix2 (0 : Fin 1) j)
      = ∑ k : Fin 256, cen m c (ix2 j k) * cen m c (ix2 j k) := by
  rw [norms_entry, shapeCast_a_1a_apply]
  simp only [Host.reduceAdd, Ideal.hostReduceAdd_def]
  rw [Ideal.hostReduceAdd_single reducesTo_S64x256_S64_d1 (by decide)]
  show Ideal.ofBits .f32 0x00000000#32 + _ = _
  rw [Ideal.ofBits_zero_f32, zero_add]
  refine Finset.sum_congr rfl fun k _ => ?_
  have e : (by decide : S64x256.Reduces [1] S64).lift (ix1 j) k = ix2 j (⟨k.val, k.isLt⟩ : Fin 256) :=
    funext fun a => Fin.ext (by match a with | ⟨0, _⟩ => rfl | ⟨1, _⟩ => rfl)
  rw [e]
  rfl

/-- The similarity the first kernel computes from the arrays it finds is the expanded-square similarity of the
    arguments' rows. -/
theorem arraySim_eq (c : Dev nD) (i : Fin 8192) (j : Fin 64) :
    AssignArray.arraySim (AssignArray.Z (V1 m ρ) c) (AssignArray.CT (V1 m ρ) c) (AssignArray.CC (V1 m ρ) c) i j
      = simExpand (rows (pts m c) i) (rows (cen m c) j) := by
  have hz : ∀ k : Fin 256, AssignArray.Z (V1 m ρ) c (ix2 i k) = pts m c (ix2 i k) :=
    fun k => congrFun (points_entry m ρ c) (ix2 i k)
  have hct : ∀ k : Fin 256, AssignArray.CT (V1 m ρ) c (ix2 k j) = cen m c (ix2 j k) := fun k => centroidsT_at m ρ c k j
  have hcc : AssignArray.CC (V1 m ρ) c (ix2 (0 : Fin 1) j) = ∑ k : Fin 256, cen m c (ix2 j k) * cen m c (ix2 j k) :=
    norms_at m ρ c j
  unfold AssignArray.arraySim simExpand
  simp only [hz, hct, hcc, Ideal.ofBits_zero_f32]

/-- So the assignment the first region leaves is the specification's, from the expanded square. -/
theorem assignFn_eq (c : Dev nD) :
    AssignArray.assignFn (AssignArray.Z (V1 m ρ) c) (AssignArray.CT (V1 m ρ) c) (AssignArray.CC (V1 m ρ) c)
      = assign simExpand (rows (pts m c)) (rows (cen m c)) := by
  funext i j
  unfold AssignArray.assignFn assign
  exact congrArg (fun q => normalize q j) (funext fun j' => arraySim_eq m ρ c i j')

end Cert.KernelIdeal.EntryArrays

end
-- ==== Proof.TargetArray.lean ====
/-
  The array the second kernel leaves: the target distribution of the assignment matrix and the column sums it finds.

  The second kernel runs over 8 points. At point t it loads rows 1024·t … 1024·t + 1023 of the assignment matrix q
  (8192 × 64) and the whole row of column sums s (1 × 64), and stores rows 1024·t … 1024·t + 1023 of the result. The
  block it stores holds at (r, j) the quotient q²/s of row r at column j over the sum of the row's quotients; read
  through the row offsets this is, at the array's entry (i, j),

      (qᵢⱼ² / sⱼ) / ∑ⱼ' (qᵢⱼ'² / sⱼ'),

  one function of the two arrays. The 8 row blocks tile the result (row i lies in block i / 1024), so after the last
  point the result array is that function everywhere.
-/
import proofs.«150530_j7000796692866_1_alg».proof.Proof.Gen.KernelIdeal.Frame
import proofs.«150530_j7000796692866_1_alg».proof.Proof.BodyValue
import proofs.«150530_j7000796692866_1_alg».proof.Proof.BlockValue
import proofs.«150530_j7000796692866_1_alg».proof.Proof.SoftAssign
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.TargetArray

open Cert.KernelIdeal Cert.KernelIdeal.Gen Cert.SoftAssign

variable (V : (c : Dev nD) → (b : Ref sig .tc) → Buf (Elt Ideal) ((c : Thread nD τ).loc b))

/-- The target distribution of an assignment matrix `q` with given column sums `s`, as an array: at (i, j) the
    quotient qᵢⱼ²/sⱼ over the sum of row i's quotients. -/
def targetOf (q : S8192x64.Idx → EReal) (s : S1x64.Idx → EReal) : S8192x64.Idx → EReal :=
  fun idx => normalize (fun j' : Fin 64 => Ideal.div (q (ix2 (idx 0) j') * q (ix2 (idx 0) j')) (s (ix2 (0 : Fin 1) j'))) (idx 1)

/-- The target distribution at the entry (i, j). -/
theorem targetOf_ix2 (q : S8192x64.Idx → EReal) (s : S1x64.Idx → EReal) (i : Fin 8192) (j : Fin 64) :
    targetOf q s (ix2 i j) = normalize (fun j' : Fin 64 => Ideal.div (q (ix2 i j') * q (ix2 i j')) (s (ix2 (0 : Fin 1) j'))) j := rfl

/-! ## The index maps over the grid -/

/-- At point t the assignment and result windows are at row block t, column block 0; the column sums at block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem points_lt (t : Fin cfg1.N) : t.val < 8 := by
  exact lt_of_lt_of_eq t.isLt N_1

/-! ## The blocks a point loads, as entries of the arrays -/

/-- The assignment block of point t at (r, j) is the assignment matrix at (1024·t + r, j). -/
theorem assign_block_at (c : Dev nD) (t : Fin cfg1.N) (r : Fin 1024) (j : Fin 64) (h : 1024 * t.val + r.val < 8192) :
    (iblk1 V c 0 t : Vec Ideal S1024x64 .f32) (ix2 r j)
      = (V c (Pipeline.arrRef spec1 0) : S8192x64.Idx → EReal) (ix2 ⟨1024 * t.val + r.val, h⟩ j) := by
  obtain ⟨e0, e1, -⟩ := index_facts t
  unfold iblk1
  rw [View.read_apply]
  show (V c (Pipeline.arrRef spec1 0) : S8192x64.Idx → EReal) _ = _
  congr 1
  funext a
  apply Fin.ext
  match a with
  | ⟨0, _⟩ => show win1_0.index t (0 : Fin 2) * 1024 + 1 * r.val = 1024 * t.val + r.val; rw [e0]; omega
  | ⟨1, _⟩ => show win1_0.index t (1 : Fin 2) * 64 + 1 * j.val = j.val; rw [e1]; omega

/-- The column-sum block of every point is the whole row of column sums. -/
theorem sums_block_at (c : Dev nD) (t : Fin cfg1.N) (j : Fin 64) :
    (iblk1 V c 1 t : Vec Ideal S1x64 .f32) (ix2 (0 : Fin 1) j)
      = (V c (Pipeline.arrRef spec1 1) : S1x64.Idx → EReal) (ix2 (0 : Fin 1) j) := by
  obtain ⟨-, -, e2, e3, -⟩ := index_facts t
  unfold iblk1
  rw [View.read_apply]
  show (V c (Pipeline.arrRef spec1 1) : S1x64.Idx → EReal) _ = _
  congr 1
  funext a
  apply Fin.ext
  match a with
  | ⟨0, _⟩ => show win1_1.index t (0 : Fin 2) * 1 + 1 * 0 = 0; rw [e2]
  | ⟨1, _⟩ => show win1_1.index t (1 : Fin 2) * 64 + 1 * j.val = j.val; rw [e3]; omega

/-- The entry (r, j) of the result block of point t is the result array's entry (1024·t + r, j). -/
theorem result_block_emb (t : Fin cfg1.N) (r : Fin 1024) (j : Fin 64) (h : 1024 * t.val + r.val < 8192) :
    ((cfg1.win 2).blk t).view.emb (ix2 r j) = (ix2 ⟨1024 * t.val + r.val, h⟩ j : S8192x64.Idx) := by
  obtain ⟨-, -, -, -, e4, e5⟩ := index_facts t
  funext a
  apply Fin.ext
  match a with
  | ⟨0, _⟩ => show win1_2.index t (0 : Fin 2) * 1024 + 1 * r.val = 1024 * t.val + r.val; rw [e4]; omega
  | ⟨1, _⟩ => show win1_2.index t (1 : Fin 2) * 64 + 1 * j.val = j.val; rw [e5]; omega

/-! ## What a point writes back -/

/-- WHAT POINT t WRITES BACK is block t of the target distribution of the two arrays as the region finds them. -/
theorem flushed_eq (c : Dev nD) (t : Fin cfg1.N) :
    (dat1 (F := Ideal) V c).flushed 2 t
      = ((cfg1.win 2).blk t).view.read (Elt Ideal) (targetOf (V c (Pipeline.arrRef spec1 0)) (V c (Pipeline.arrRef spec1 1))) := by
  show (cfg1.win 2).cut (grid1.coords t) ((dat1 (F := Ideal) V c).after 2 t) = _
  rw [after1_2, BodyValue.target_block]
  funext y
  obtain ⟨r, j, rfl⟩ : ∃ (r : Fin 1024) (j : Fin 64), y = ix2 r j := ⟨y 0, y 1, eq_ix2 y⟩
  have ht := points_lt t
  have h : 1024 * t.val + r.val < 8192 := by have := r.isLt; omega
  rw [View.read_apply, result_block_emb t r j h]
  show k1_pay1 (F := Ideal) (iblk1 V c 0 t) (iblk1 V c 1 t) (ix2 r j) = targetOf (V c (Pipeline.arrRef spec1 0)) (V c (Pipeline.arrRef spec1 1)) (ix2 ⟨1024 * t.val + r.val, h⟩ j)
  refine (BlockValue.target_at (iblk1 V c 0 t) (iblk1 V c 1 t) r j).trans ?_
  unfold targetOf
  show normalize _ j = normalize _ j
  refine congrArg (fun f => normalize f j) (funext fun j' => ?_)
  rw [assign_block_at V c t r j' h, sums_block_at V c t j']

/-! ## The blocks tile the result -/

/-- An index of the result is in point t's block iff each coordinate is in the block's range on its axis. -/
theorem mem_block (t : Fin cfg1.N) (i : S8192x64.Idx) :
    i ∈ ((cfg1.win 2).blk t).view.set ↔ ∀ a : Fin 2, win1_2.index t a * S1024x64.size a ≤ (i a).val
      ∧ (i a).val < win1_2.index t a * S1024x64.size a + S1024x64.size a := by
  show i ∈ ((View.whole main_v6).slice (win1_2.rect t)).set ↔ _
  rw [View.set_slice_whole, Rect.mem_set_unit]
  exact Iff.rfl

/-- Row i of the result lies in the block of point i / 1024, which is written back. -/
theorem covered (i : S8192x64.Idx) :
    ∃ t : Fin cfg1.N, (cfg1.win 2).flush t = true ∧ i ∈ ((cfg1.win 2).blk t).view.set := by
  have hi0 : (i 0).val < 8192 := (i 0).isLt
  have hi1 : (i 1).val < 64 := (i 1).isLt
  obtain ⟨t, ht⟩ : ∃ t : Fin cfg1.N, t.val = (i 0).val / 1024 :=
    ⟨⟨(i 0).val / 1024, lt_of_lt_of_eq (show (i 0).val / 1024 < 8 by omega) N_1.symm⟩, rfl⟩
  obtain ⟨-, -, -, -, e4, e5⟩ := index_facts t
  refine ⟨t, flush1_2 t, ?_⟩
  rw [mem_block]
  intro a
  match a with
  | ⟨0, _⟩ =>
    show win1_2.index t (0 : Fin 2) * 1024 ≤ (i 0).val ∧ (i 0).val < win1_2.index t (0 : Fin 2) * 1024 + 1024
    rw [e4, ht]; omega
  | ⟨1, _⟩ =>
    show win1_2.index t (1 : Fin 2) * 64 ≤ (i 1).val ∧ (i 1).val < win1_2.index t (1 : Fin 2) * 64 + 64
    rw [e5]; omega

/-! ## The result array -/

/-- THE RESULT ARRAY after the last point is the target distribution of the assignment matrix and the column sums
    the region finds. -/
theorem target_array_eq (c : Dev nD) :
    (dat1 (F := Ideal) V c).arrAt 2 cfg1.N = targetOf (V c (Pipeline.arrRef spec1 0)) (V c (Pipeline.arrRef spec1 1)) :=
  (dat1 (F := Ideal) V c).arrAt_eq_of_cover 2 (targetOf (V c (Pipeline.arrRef spec1 0)) (V c (Pipeline.arrRef spec1 1)))
    (fun t _ => flushed_eq V c t) covered

/-- The same, entry by entry. -/
theorem target_array (c : Dev nD) :
    (dat1 (F := Ideal) V c).arrAt 2 cfg1.N = fun idx : S8192x64.Idx =>
      normalize (fun j' : Fin 64 => Ideal.div
        (HMul.hMul (α := EReal) (β := EReal) (γ := EReal) (V c (Pipeline.arrRef spec1 0) (ix2 (idx 0) j'))
          (V c (Pipeline.arrRef spec1 0) (ix2 (idx 0) j')))
        (V c (Pipeline.arrRef spec1 1) (ix2 (0 : Fin 1) j'))) (idx 1) :=
  target_array_eq V c

end Cert.KernelIdeal.TargetArray

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.FiniteInputs.lean ====
/-
  From the precondition "every input is finite" to: every entry of both argument arrays is a real number.

  The precondition is the conjunction of two bits, one per argument: `all (|x| < +inf)`, the elementwise test reduced by
  `and` over both axes. A conjunction that is 1 has both bits 1; a reduction by `and` that is 1 had a 1 at every entry;
  and an entry whose absolute value is below `+inf` is neither infinity, that is, a real number.
-/
import proofs.«150530_j7000796692866_1_alg».proof.Defs
import proofs.«150530_j7000796692866_1_alg».proof.Proof.Gen.Pre_finite_inputs
import proofs.«150530_j7000796692866_1_alg».proof.Proof.LibFiniteEntry
import Idealize.ShloMosaic.Lib.ValueIdx
import Idealize.ShloMosaic.Lib.Affine

noncomputable section

namespace Cert.Proof.FiniteInputs

open Idealize.ShloMosaic Idealize.SL.Sem

/-- Under the precondition every entry of the first argument (the points) is a real number. -/
theorem arg0_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S8192x256.Idx) :
    ∃ r : ℝ, m ((c.tc : Thread Cert.KernelIdeal.nD Cert.KernelIdeal.τ).loc Cert.KernelIdeal.main_arg0) i = (r : EReal) := by
  have h0 := congrFun (h c) Idealize.ShloMosaic.ValueIdx.ix0
  dsimp only [Cert.Pre_finite_inputs.fn] at h0
  obtain ⟨h1, _⟩ := IntOp.andi_eq_one.1 h0
  exact Cert.Lib.FiniteEntry.entry_real _ _ i (Host.reduce_andi_all _ _ _ _ _ h1 i)

/-- Under the precondition every entry of the second argument (the centroids) is a real number. -/
theorem arg1_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S64x256.Idx) :
    ∃ r : ℝ, m ((c.tc : Thread Cert.KernelIdeal.nD Cert.KernelIdeal.τ).loc Cert.KernelIdeal.main_arg1) i = (r : EReal) := by
  have h0 := congrFun (h c) Idealize.ShloMosaic.ValueIdx.ix0
  dsimp only [Cert.Pre_finite_inputs.fn] at h0
  obtain ⟨_, h2⟩ := IntOp.andi_eq_one.1 h0
  exact Cert.Lib.FiniteEntry.entry_real _ _ i (Host.reduce_andi_all _ _ _ _ _ h2 i)

end Cert.Proof.FiniteInputs

end
-- ==== Proof.KernelValue.lean ====
/-
  The idealized kernel's two results as the specification's arrays.

  Following the buffers through the program's three segments: the assignment matrix is what the first region's
  write-backs leave (the second region only reads it), the target distribution what the second region's leave, entered
  with the assignment matrix and its column sums as the first region left them. Both are the specification's arrays
  built from the expanded-square similarity; where every entry of both arguments is a real number — the
  precondition — that similarity is the one built from the difference vector, entry by entry, and with it the arrays.
-/
import proofs.«150530_j7000796692866_1_alg».proof.Proof.KernelRun
import proofs.«150530_j7000796692866_1_alg».proof.Proof.EntryArrays
import proofs.«150530_j7000796692866_1_alg».proof.Proof.TargetArray
import proofs.«150530_j7000796692866_1_alg».proof.Proof.DistanceLaw
import proofs.«150530_j7000796692866_1_alg».proof.Proof.FiniteInputs

set_option maxRecDepth 16384

noncomputable section

open Idealize.ShloMosaic Idealize.ShloMosaic.TcCoe Idealize.SL.Sem Idealize.ShloMosaic.ValueIdx

namespace Cert.KernelIdeal.ResultValue

open Cert.KernelIdeal Cert.KernelIdeal.Gen Cert.SoftAssign Cert.KernelIdeal.EntryArrays

variable (m : (ℓ : Loc nD τ sig) → Buf (Elt Ideal) ℓ) (ρ : Dev nD → PrngReg)

/-- The assignment matrix as the first region leaves it. -/
theorem assign_left (c : Dev nD) :
    (dat0 (V1 m ρ) c).arrAt 3 cfg0.N
      = fun idx : S8192x64.Idx => assign simExpand (rows (pts m c)) (rows (cen m c)) (idx 0) (idx 1) := by
  rw [AssignArray.assign_array (V1 m ρ) c, assignFn_eq]

/-- The column sums as the first region leaves them. -/
theorem sums_left (c : Dev nD) :
    (dat0 (V1 m ρ) c).arrAt 4 cfg0.N
      = fun y : S1x64.Idx => colMass (assign simExpand (rows (pts m c)) (rows (cen m c))) (y 1) := by
  rw [AssignArray.sums_array (V1 m ρ) c, assignFn_eq]

/-- The first result at the last boundary: the assignment matrix. -/
theorem assign_result (c : Dev nD) :
    W3 m ρ c (Proc.devRef .tc main_v5_0) = assignArr simExpand (pts m c) (cen m c) := by
  have h1 : W3 m ρ c (Proc.devRef .tc main_v5_0) = W2 m ρ c (Proc.devRef .tc main_v5_0) :=
    (W3_arr m ρ c 0).trans (((dat1 (V2 m ρ) c).arrAt_in 0 rfl _).trans (A_eq1 (V2 m ρ) c 0))
  have h2 : W2 m ρ c (Proc.devRef .tc main_v5_0) = (dat0 (V1 m ρ) c).arrAt 3 cfg0.N := W2_arr m ρ c 3
  rw [h1, h2, assign_left]
  rfl

/-- The second result at the last boundary: the target distribution. -/
theorem target_result (c : Dev nD) :
    W3 m ρ c (Proc.devRef .tc main_v6) = targetArr simExpand (pts m c) (cen m c) := by
  have h1 : W3 m ρ c (Proc.devRef .tc main_v6) = (dat1 (V2 m ρ) c).arrAt 2 cfg1.N := W3_arr m ρ c 2
  have hq : (V2 m ρ c (Pipeline.arrRef spec1 0) : S8192x64.Idx → EReal)
      = fun idx : S8192x64.Idx => assign simExpand (rows (pts m c)) (rows (cen m c)) (idx 0) (idx 1) :=
    (W2_arr m ρ c 3).trans (assign_left m ρ c)
  have hs : (V2 m ρ c (Pipeline.arrRef spec1 1) : S1x64.Idx → EReal)
      = fun y : S1x64.Idx => colMass (assign simExpand (rows (pts m c)) (rows (cen m c))) (y 1) :=
    (W2_arr m ρ c 4).trans (sums_left m ρ c)
  rw [h1, TargetArray.target_array_eq (V2 m ρ) c, hq, hs]
  rfl

/-- Where both arrays hold real numbers the two similarities, and so the two assignments, agree. -/
theorem assign_eq_of_real (z : S8192x256.Idx → EReal) (c : S64x256.Idx → EReal)
    (hz : ∀ i, ∃ r : ℝ, z i = (r : EReal)) (hc : ∀ i, ∃ r : ℝ, c i = (r : EReal)) :
    assign simExpand (rows z) (rows c) = assign simDiff (rows z) (rows c) := by
  funext i j
  unfold assign
  exact congrArg (fun q => normalize q j) (funext fun j' =>
    simExpand_eq_simDiff (rows z i) (rows c j') (fun k => hz (ix2 i k)) (fun k => hc (ix2 j' k)))

theorem assignArr_eq_of_real (z : S8192x256.Idx → EReal) (c : S64x256.Idx → EReal)
    (hz : ∀ i, ∃ r : ℝ, z i = (r : EReal)) (hc : ∀ i, ∃ r : ℝ, c i = (r : EReal)) :
    assignArr simExpand z c = assignArr simDiff z c := by
  unfold assignArr
  rw [assign_eq_of_real z c hz hc]

theorem targetArr_eq_of_real (z : S8192x256.Idx → EReal) (c : S64x256.Idx → EReal)
    (hz : ∀ i, ∃ r : ℝ, z i = (r : EReal)) (hc : ∀ i, ∃ r : ℝ, c i = (r : EReal)) :
    targetArr simExpand z c = targetArr simDiff z c := by
  unfold targetArr
  rw [assign_eq_of_real z c hz hc]

/-- THE KERNEL'S RUN under the precondition: the two results are the specification's assignment matrix and target
    distribution of the two arguments (the similarity from the difference vector), the arguments as launched. -/
theorem run (hpre : Cert.Pre_KernelIdeal (hPre_finite_inputs := Cert.Pre_finite_inputs.Gen.facts) m) :
    θ_run (defs (F := Ideal)) (onTc (τ := τ) (main (F := Ideal))) ⟨m, fun _ => 0, ρ⟩ (fun r => ∀ c : Dev nD,
      r.2.mem ((c.tc : Thread nD τ).loc main_v5_0)
        = assignArr simDiff (m ((c.tc : Thread nD τ).loc main_arg0)) (m ((c.tc : Thread nD τ).loc main_arg1))
      ∧ r.2.mem ((c.tc : Thread nD τ).loc main_v6)
        = targetArr simDiff (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c =>
    ⟨(h c).1.trans ((assign_result m ρ c).trans (assignArr_eq_of_real _ _
        (Cert.Proof.FiniteInputs.arg0_real m hpre c) (Cert.Proof.FiniteInputs.arg1_real m hpre c))),
     (h c).2.1.trans ((target_result m ρ c).trans (targetArr_eq_of_real _ _
        (Cert.Proof.FiniteInputs.arg0_real m hpre c) (Cert.Proof.FiniteInputs.arg1_real m hpre c))),
     (h c).2.2.1, (h c).2.2.2⟩)
    (RunValue.run_results (F := Ideal) m ρ)

end Cert.KernelIdeal.ResultValue

end
-- ==== Proof.lean ====
/-
  Soft cluster assignment and its target distribution: a two-kernel program against its jnp reference, on the extended
  reals.

  For points `z` (8192 × 256) and centroids `c` (64 × 256) both programs return the assignment matrix
  `Q[i, j] = s(zᵢ, cⱼ) / ∑ⱼ' s(zᵢ, cⱼ')` with the Student-t similarity `s(x, y) = (1 + ‖x − y‖)⁻¹`, and the target
  distribution `P[i, j] = (Q[i, j]² / ∑ᵢ' Q[i', j]) / ∑ⱼ' (Q[i, j']² / ∑ᵢ' Q[i', j'])`.

  The reference forms the difference vectors, sums their squares, and raises `1 + √· / 1` to the power −1. The first
  kernel expands the square, `‖x‖² + ‖y‖² − 2·x·y` (the cross term as a matrix product with the transposed centroids,
  the centroids' norms prepared on the host), clamps it at zero, and divides one by `1 + √·`; it normalises each row and
  accumulates the column sums block after block over eight row blocks. The second kernel forms the target from the
  assignment matrix and those column sums. On the extended reals a change of float format is the identity and a sum may be
  taken in any grouping, so the only law between the two programs is the expansion of the square together with
  `x⁻¹ = 1/x = x^(−1)`: an identity of real numbers, which is why the precondition (every input finite) is used.

  The three frames are the generated ones (the reference's is its generated run with the results dropped); the ideal
  pass rewrote nothing, so the idealization claim is trivial; the algebraic claim puts the two runs side by side at the
  specification's arrays (Proof/SoftAssign.lean).
-/
import proofs.«150530_j7000796692866_1_alg».proof.Defs
import proofs.«150530_j7000796692866_1_alg».proof.Proof.Gen.Kernel
import proofs.«150530_j7000796692866_1_alg».proof.Proof.Gen.Kernel.Skeleton
import proofs.«150530_j7000796692866_1_alg».proof.Proof.Gen.Kernel.Launch
import proofs.«150530_j7000796692866_1_alg».proof.Proof.Gen.Kernel.Points
import proofs.«150530_j7000796692866_1_alg».proof.Proof.Gen.Kernel.Frame
import proofs.«150530_j7000796692866_1_alg».proof.Proof.Gen.KernelIdeal
import proofs.«150530_j7000796692866_1_alg».proof.Proof.Gen.KernelIdeal.Skeleton
import proofs.«150530_j7000796692866_1_alg».proof.Proof.Gen.KernelIdeal.Launch
import proofs.«150530_j7000796692866_1_alg».proof.Proof.Gen.KernelIdeal.Points
import proofs.«150530_j7000796692866_1_alg».proof.Proof.Gen.KernelIdeal.Frame
import proofs.«150530_j7000796692866_1_alg».proof.Proof.Gen.ReferenceIdeal
import proofs.«150530_j7000796692866_1_alg».proof.Proof.Gen.Pre_finite_inputs
import proofs.«150530_j7000796692866_1_alg».proof.Proof.Gen.ReferenceIdeal.Run
import proofs.«150530_j7000796692866_1_alg».proof.Proof.Gen.ReferenceIdeal.Read
import proofs.«150530_j7000796692866_1_alg».proof.Proof.RefValue
import proofs.«150530_j7000796692866_1_alg».proof.Proof.KernelValue
import Idealize.ShloMosaic.Adequacy
import Idealize.ShloMosaic.Init

noncomputable section

namespace Cert.Proof

open Idealize.ShloMosaic Idealize.SL.Sem

/-- From memories agreeing on the points and the centroids, both idealized programs end with the specification's
    assignment matrix and target distribution of those two arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.KernelIdeal.ResultValue.run m ρ hpre, ?_⟩
  refine (θ_run Cert.ReferenceIdeal.defs _ _).mono (fun r h c => ⟨?_, ?_, (h c).2.2.1, (h c).2.2.2⟩)
    (Cert.ReferenceIdeal.Value.run (F := Ideal) m' ρ')
  · rw [(h c).1, Cert.ReferenceIdeal.Read.val_main_v17_eq, Cert.ReferenceIdeal.RefValue.v17_eq, (hagree c).1, (hagree c).2]
  · rw [(h c).2.1, Cert.ReferenceIdeal.Read.val_main_v26_eq, Cert.ReferenceIdeal.RefValue.v26_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2)
    (Cert.ReferenceIdeal.Value.run (F := Ideal) m ρ),
  trivial,
  algebraic⟩

end Cert.Proof

end
